-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v158)) (v1 : (c : Dev Cert.KernelIdeal.nD) → Buf (Elt Ideal) ((c.tc : Thread Cert.KernelIdeal.nD Cert.KernelIdeal.τ).loc Cert.KernelIdeal.main_v178)) (v2 : (c : Dev Cert.KernelIdeal.nD) → Buf (Elt Ideal) ((c.tc : Thread Cert.KernelIdeal.nD Cert.KernelIdeal.τ).loc Cert.KernelIdeal.main_v94)) (v3 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_v178) = v1 c
          ∧ r.2.mem ((c.tc : Thread Cert.KernelIdeal.nD Cert.KernelIdeal.τ).loc Cert.KernelIdeal.main_v94) = v2 c
          ∧ r.2.mem ((c.tc : Thread Cert.KernelIdeal.nD Cert.KernelIdeal.τ).loc Cert.KernelIdeal.main_v141) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_v190) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_v141) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S2048x16 : Shape := ⟨2, ![2048, 16]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S2x65536 : Shape := ⟨2, ![2, 65536]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S2048x16 : S_.BroadcastsInDim S2048x16 (![] : Fin 0 → Fin S2048x16.rank)
  reducesTo_S2048x16_S_d0_1 : S2048x16.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S16x1 .f32) (main_v50 : FVec F S16x1 .f32) : IVec S_ 1 :=
  let main_v51 : IVec S16x1 1 := cmpf .olt main_v49 main_v50
  let main_c_19 : IVec S_ 1 := constantI S_ 1 1#1
  let main_v52 : IVec S_ 1 := (fun x v => Host.reduce IntOp.andi x v reducesTo_S16x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S16 .f32) (main_arg8 : FVec F S32x16 .f32) (main_arg9 : FVec F S16 .f32) (main_arg10 : FVec F S16x1 .f32) (main_arg11 : FVec F S1 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S32x16 .f32 := Host.absf main_arg8
  let main_cst_14 : FVec F S_ .f32 := constant S_ .f32 0x7F800000#32
  let main_v40 : FVec F S32x16 .f32 := broadcastInDim S32x16 ![] bcast_S_S32x16 main_cst_14
  let main_v41 : IVec S32x16 1 := cmpf .olt main_v39 main_v40
  let main_c_15 : IVec S_ 1 := constantI S_ 1 1#1
  let main_v42 : IVec S_ 1 := (fun x v => Host.reduce IntOp.andi x v reducesTo_S32x16_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x1 .f32 := Host.absf main_arg10
  let main_cst_18 : FVec F S_ .f32 := constant S_ .f32 0x7F800000#32
  let main_v50 : FVec F S16x1 .f32 := broadcastInDim S16x1 ![] bcast_S_S16x1 main_cst_18
  fn_part3 (F := F) main_arg11 main_v48 main_v49 main_v50

def fn_part1 {F : FTy → Type} [FloatOps F] (main_arg4 : FVec F S32x16 .f32) (main_arg5 : FVec F S16 .f32) (main_arg6 : FVec F S32x16 .f32) (main_arg7 : FVec F S16 .f32) (main_arg8 : FVec F S32x16 .f32) (main_arg9 : FVec F S16 .f32) (main_arg10 : FVec F S16x1 .f32) (main_arg11 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S32x16 .f32 := Host.absf main_arg6
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2048x128 .f32) (main_arg1 : FVec F S2048x16 .f32) (main_arg2 : FVec F S128x32 .f32) (main_arg3 : FVec F S32 .f32) (main_arg4 : FVec F S32x16 .f32) (main_arg5 : FVec F S16 .f32) (main_arg6 : FVec F S32x16 .f32) (main_arg7 : FVec F S16 .f32) (main_arg8 : FVec F S32x16 .f32) (main_arg9 : FVec F S16 .f32) (main_arg10 : FVec F S16x1 .f32) (main_arg11 : FVec F S1 .f32) (main_arg12 : IVec S2x65536 32) (main_arg13 : IVec S2x65536 32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S2048x16 .f32 := Host.absf main_arg1
  let main_cst_0 : FVec F S_ .f32 := constant S_ .f32 0x7F800000#32
  let main_v5 : FVec F S2048x16 .f32 := broadcastInDim S2048x16 ![] bcast_S_S2048x16 main_cst_0
  let main_v6 : IVec S2048x16 1 := cmpf .olt main_v4 main_v5
  let main_c_1 : IVec S_ 1 := constantI S_ 1 1#1
  let main_v7 : IVec S_ 1 := (fun x v => Host.reduce IntOp.andi x v reducesTo_S2048x16_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_v13 main_v16
-- ==== Kernel.lean ====
abbrev S2048x128 : Shape := ⟨2, ![2048, 128]⟩
abbrev S2048x16 : Shape := ⟨2, ![2048, 16]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S2x65536 : Shape := ⟨2, ![2, 65536]⟩
abbrev S2048 : Shape := ⟨1, ![2048]⟩
abbrev S1x65536 : Shape := ⟨2, ![1, 65536]⟩
abbrev S65536 : Shape := ⟨1, ![65536]⟩
abbrev S67584 : Shape := ⟨1, ![67584]⟩
abbrev S_ : Shape := ⟨0, ![]⟩
abbrev S67584x1 : Shape := ⟨2, ![67584, 1]⟩
abbrev S2048x32 : Shape := ⟨2, ![2048, 32]⟩
abbrev S67584x32 : Shape := ⟨2, ![67584, 32]⟩
abbrev S1x32 : Shape := ⟨2, ![1, 32]⟩
abbrev S67584x16 : Shape := ⟨2, ![67584, 16]⟩
abbrev S1x16 : Shape := ⟨2, ![1, 16]⟩
abbrev S16x16 : Shape := ⟨2, ![16, 16]⟩
abbrev S16x2048 : Shape := ⟨2, ![16, 2048]⟩
abbrev S1x1 : Shape := ⟨2, ![1, 1]⟩
abbrev S2048x2048 : Shape := ⟨2, ![2048, 2048]⟩
abbrev S1024x16 : Shape := ⟨2, ![1024, 16]⟩
abbrev S16x1024 : Shape := ⟨2, ![16, 1024]⟩
abbrev S1024x1024 : Shape := ⟨2, ![1024, 1024]⟩
abbrev S1024x1 : Shape := ⟨2, ![1024, 1]⟩
abbrev S1x1024 : Shape := ⟨2, ![1, 1024]⟩
abbrev S65536x1 : Shape := ⟨2, ![65536, 1]⟩
abbrev S65536x2 : Shape := ⟨2, ![65536, 2]⟩

abbrev nBuf : Space → Nat
  | .hbm => 241
  | .vmem => 8
  | .smem => 0
  | _ => 0

abbrev hbmTy0_0 (i : Nat) : BufTy := match i % 128 with
  | 0 => ⟨S2048x128, .f32⟩
  | 1 => ⟨S2048x16, .f32⟩
  | 2 => ⟨S128x32, .f32⟩
  | 3 => ⟨S32, .f32⟩
  | 4 => ⟨S32x16, .f32⟩
  | 5 => ⟨S16, .f32⟩
  | 6 => ⟨S32x16, .f32⟩
  | 7 => ⟨S16, .f32⟩
  | 8 => ⟨S32x16, .f32⟩
  | 9 => ⟨S16, .f32⟩
  | 10 => ⟨S16x1, .f32⟩
  | 11 => ⟨S1, .f32⟩
  | 12 => ⟨S2x65536, .i32⟩
  | 13 => ⟨S2x65536, .i32⟩
  | 14 => ⟨S2048, .i32⟩
  | 15 => ⟨S1x65536, .i32⟩
  | 16 => ⟨S65536, .i32⟩
  | 17 => ⟨S67584, .i32⟩
  | 18 => ⟨S1x65536, .i32⟩
  | 19 => ⟨S65536, .i32⟩
  | 20 => ⟨S67584, .i32⟩
  | 21 => ⟨S_, .f32⟩
  | 22 => ⟨S67584, .f32⟩
  | 23 => ⟨S_, .f32⟩
  | 24 => ⟨S2048, .f32⟩
  | 25 => ⟨S67584x1, .i32⟩
  | 26 => ⟨S2048, .f32⟩
  | 27 => ⟨S_, .f32⟩
  | 28 => ⟨S2048, .f32⟩
  | 29 => ⟨S2048, .i1⟩
  | 30 => ⟨S2048, .f32⟩
  | 31 => ⟨S_, .f32⟩
  | 32 => ⟨S_, .f32⟩
  | 33 => ⟨S2048, .f32⟩
  | 34 => ⟨S2048, .f32⟩
  | 35 => ⟨S_, .i32⟩
  | 36 => ⟨S67584, .i32⟩
  | 37 => ⟨S67584, .i1⟩
  | 38 => ⟨S_, .i32⟩
  | 39 => ⟨S67584, .i32⟩
  | 40 => ⟨S67584, .i32⟩
  | 41 => ⟨S67584, .i32⟩
  | 42 => ⟨S67584x1, .i32⟩
  | 43 => ⟨S67584, .f32⟩
  | 44 => ⟨S_, .i32⟩
  | 45 => ⟨S67584, .i32⟩
  | 46 => ⟨S67584, .i1⟩
  | 47 => ⟨S_, .i32⟩
  | 48 => ⟨S67584, .i32⟩
  | 49 => ⟨S67584, .i32⟩
  | 50 => ⟨S67584, .i32⟩
  | 51 => ⟨S67584x1, .i32⟩
  | 52 => ⟨S67584, .f32⟩
  | 53 => ⟨S67584, .f32⟩
  | 54 => ⟨S2048x32, .f32⟩
  | 55 => ⟨S67584x1, .f32⟩
  | 56 => ⟨S_, .i32⟩
  | 57 => ⟨S67584, .i32⟩
  | 58 => ⟨S67584, .i1⟩
  | 59 => ⟨S_, .i32⟩
  | 60 => ⟨S67584, .i32⟩
  | 61 => ⟨S67584, .i32⟩
  | 62 => ⟨S67584, .i32⟩
  | 63 => ⟨S67584x1, .i32⟩
  | 64 => ⟨S67584x32, .f32⟩
  | 65 => ⟨S67584x32, .f32⟩
  | 66 => ⟨S67584x32, .f32⟩
  | 67 => ⟨S_, .f32⟩
  | 68 => ⟨S2048x32, .f32⟩
  | 69 => ⟨S67584x1, .i32⟩
  | 70 => ⟨S2048x32, .f32⟩
  | 71 => ⟨S1x32, .f32⟩
  | 72 => ⟨S2048x32, .f32⟩
  | 73 => ⟨S2048x32, .f32⟩
  | 74 => ⟨S_, .f32⟩
  | 75 => ⟨S2048x32, .f32⟩
  | 76 => ⟨S2048x32, .f32⟩
  | 77 => ⟨S2048, .i32⟩
  | 78 => ⟨S1x65536, .i32⟩
  | 79 => ⟨S65536, .i32⟩
  | 80 => ⟨S67584, .i32⟩
  | 81 => ⟨S1x65536, .i32⟩
  | 82 => ⟨S65536, .i32⟩
  | 83 => ⟨S67584, .i32⟩
  | 84 => ⟨S_, .f32⟩
  | 85 => ⟨S67584, .f32⟩
  | 86 => ⟨S_, .f32⟩
  | 87 => ⟨S2048, .f32⟩
  | 88 => ⟨S67584x1, .i32⟩
  | 89 => ⟨S2048, .f32⟩
  | 90 => ⟨S_, .f32⟩
  | 91 => ⟨S2048, .f32⟩
  | 92 => ⟨S2048, .i1⟩
  | 93 => ⟨S2048, .f32⟩
  | 94 => ⟨S_, .f32⟩
  | 95 => ⟨S_, .f32⟩
  | 96 => ⟨S2048, .f32⟩
  | 97 => ⟨S2048, .f32⟩
  | 98 => ⟨S_, .i32⟩
  | 99 => ⟨S67584, .i32⟩
  | 100 => ⟨S67584, .i1⟩
  | 101 => ⟨S_, .i32⟩
  | 102 => ⟨S67584, .i32⟩
  | 103 => ⟨S67584, .i32⟩
  | 104 => ⟨S67584, .i32⟩
  | 105 => ⟨S67584x1, .i32⟩
  | 106 => ⟨S67584, .f32⟩
  | 107 => ⟨S_, .i32⟩
  | 108 => ⟨S67584, .i32⟩
  | 109 => ⟨S67584, .i1⟩
  | 110 => ⟨S_, .i32⟩
  | 111 => ⟨S67584, .i32⟩
  | 112 => ⟨S67584, .i32⟩
  | 113 => ⟨S67584, .i32⟩
  | 114 => ⟨S67584x1, .i32⟩
  | 115 => ⟨S67584, .f32⟩
  | 116 => ⟨S67584, .f32⟩
  | 117 => ⟨S2048x16, .f32⟩
  | 118 => ⟨S67584x1, .f32⟩
  | 119 => ⟨S_, .i32⟩
  | 120 => ⟨S67584, .i32⟩
  | 121 => ⟨S67584, .i1⟩
  | 122 => ⟨S_, .i32⟩
  | 123 => ⟨S67584, .i32⟩
  | 124 => ⟨S67584, .i32⟩
  | 125 => ⟨S67584, .i32⟩
  | 126 => ⟨S67584x1, .i32⟩
  | 127 => ⟨S67584x16, .f32⟩
  | _ => ⟨S2048x128, .f32⟩

abbrev hbmTy0_1 (i : Nat) : BufTy := match i % 128 with
  | 0 => ⟨S67584x16, .f32⟩
  | 1 => ⟨S67584x16, .f32⟩
  | 2 => ⟨S_, .f32⟩
  | 3 => ⟨S2048x16, .f32⟩
  | 4 => ⟨S67584x1, .i32⟩
  | 5 => ⟨S2048x16, .f32⟩
  | 6 => ⟨S1x16, .f32⟩
  | 7 => ⟨S2048x16, .f32⟩
  | 8 => ⟨S2048x16, .f32⟩
  | 9 => ⟨S2048, .i32⟩
  | 10 => ⟨S1x65536, .i32⟩
  | 11 => ⟨S65536, .i32⟩
  | 12 => ⟨S67584, .i32⟩
  | 13 => ⟨S1x65536, .i32⟩
  | 14 => ⟨S65536, .i32⟩
  | 15 => ⟨S67584, .i32⟩
  | 16 => ⟨S_, .f32⟩
  | 17 => ⟨S67584, .f32⟩
  | 18 => ⟨S_, .f32⟩
  | 19 => ⟨S2048, .f32⟩
  | 20 => ⟨S67584x1, .i32⟩
  | 21 => ⟨S2048, .f32⟩
  | 22 => ⟨S_, .f32⟩
  | 23 => ⟨S2048, .f32⟩
  | 24 => ⟨S2048, .i1⟩
  | 25 => ⟨S2048, .f32⟩
  | 26 => ⟨S_, .f32⟩
  | 27 => ⟨S_, .f32⟩
  | 28 => ⟨S2048, .f32⟩
  | 29 => ⟨S2048, .f32⟩
  | 30 => ⟨S_, .i32⟩
  | 31 => ⟨S67584, .i32⟩
  | 32 => ⟨S67584, .i1⟩
  | 33 => ⟨S_, .i32⟩
  | 34 => ⟨S67584, .i32⟩
  | 35 => ⟨S67584, .i32⟩
  | 36 => ⟨S67584, .i32⟩
  | 37 => ⟨S67584x1, .i32⟩
  | 38 => ⟨S67584, .f32⟩
  | 39 => ⟨S_, .i32⟩
  | 40 => ⟨S67584, .i32⟩
  | 41 => ⟨S67584, .i1⟩
  | 42 => ⟨S_, .i32⟩
  | 43 => ⟨S67584, .i32⟩
  | 44 => ⟨S67584, .i32⟩
  | 45 => ⟨S67584, .i32⟩
  | 46 => ⟨S67584x1, .i32⟩
  | 47 => ⟨S67584, .f32⟩
  | 48 => ⟨S67584, .f32⟩
  | 49 => ⟨S2048x16, .f32⟩
  | 50 => ⟨S67584x1, .f32⟩
  | 51 => ⟨S_, .i32⟩
  | 52 => ⟨S67584, .i32⟩
  | 53 => ⟨S67584, .i1⟩
  | 54 => ⟨S_, .i32⟩
  | 55 => ⟨S67584, .i32⟩
  | 56 => ⟨S67584, .i32⟩
  | 57 => ⟨S67584, .i32⟩
  | 58 => ⟨S67584x1, .i32⟩
  | 59 => ⟨S67584x16, .f32⟩
  | 60 => ⟨S67584x16, .f32⟩
  | 61 => ⟨S67584x16, .f32⟩
  | 62 => ⟨S_, .f32⟩
  | 63 => ⟨S2048x16, .f32⟩
  | 64 => ⟨S67584x1, .i32⟩
  | 65 => ⟨S2048x16, .f32⟩
  | 66 => ⟨S1x16, .f32⟩
  | 67 => ⟨S2048x16, .f32⟩
  | 68 => ⟨S2048x16, .f32⟩
  | 69 => ⟨S_, .f32⟩
  | 70 => ⟨S2048x16, .f32⟩
  | 71 => ⟨S2048x16, .f32⟩
  | 72 => ⟨S2048x16, .f32⟩
  | 73 => ⟨S2048x16, .f32⟩
  | 74 => ⟨S2048x16, .f32⟩
  | 75 => ⟨S16x16, .f32⟩
  | 76 => ⟨S2048x16, .f32⟩
  | 77 => ⟨S1x16, .f32⟩
  | 78 => ⟨S2048x16, .f32⟩
  | 79 => ⟨S2048x16, .f32⟩
  | 80 => ⟨S16x16, .f32⟩
  | 81 => ⟨S2048x16, .f32⟩
  | 82 => ⟨S16x2048, .f32⟩
  | 83 => ⟨S16, .f32⟩
  | 84 => ⟨S1x16, .f32⟩
  | 85 => ⟨S1x1, .f32⟩
  | 86 => ⟨S2048x2048, .f32⟩
  | 87 => ⟨S_, .f32⟩
  | 88 => ⟨S2048x2048, .f32⟩
  | 89 => ⟨S1x65536, .i32⟩
  | 90 => ⟨S65536, .i32⟩
  | 91 => ⟨S1x65536, .i32⟩
  | 92 => ⟨S65536, .i32⟩
  | 93 => ⟨S_, .i32⟩
  | 94 => ⟨S65536, .i32⟩
  | 95 => ⟨S65536, .i1⟩
  | 96 => ⟨S_, .i32⟩
  | 97 => ⟨S65536, .i32⟩
  | 98 => ⟨S65536, .i32⟩
  | 99 => ⟨S65536, .i32⟩
  | 100 => ⟨S_, .i32⟩
  | 101 => ⟨S65536, .i32⟩
  | 102 => ⟨S65536, .i1⟩
  | 103 => ⟨S_, .i32⟩
  | 104 => ⟨S65536, .i32⟩
  | 105 => ⟨S65536, .i32⟩
  | 106 => ⟨S65536, .i32⟩
  | 107 => ⟨S65536x1, .i32⟩
  | 108 => ⟨S65536x1, .i32⟩
  | 109 => ⟨S65536x2, .i32⟩
  | 110 => ⟨S_, .f32⟩
  | 111 => ⟨S65536, .f32⟩
  | 112 => ⟨S2048x2048, .f32⟩
  | _ => ⟨S2048x128, .f32⟩

abbrev hbmTy (i : Nat) : BufTy := match i / 128 with
  | 0 => hbmTy0_0 i
  | 1 => hbmTy0_1 i
  | _ => ⟨S2048x128, .f32⟩

abbrev bufTy : (tb : Table) → Fin (tcTables nBuf tb) → BufTy
  | .hbm, ⟨i, _⟩ => hbmTy i
  | .local _ .vmem, ⟨0, _⟩ => ⟨S1024x16, .f32⟩
  | .local _ .vmem, ⟨1, _⟩ => ⟨S1024x16, .f32⟩
  | .local _ .vmem, ⟨2, _⟩ => ⟨S16x1024, .f32⟩
  | .local _ .vmem, ⟨3, _⟩ => ⟨S16x1024, .f32⟩
  | .local _ .vmem, ⟨4, _⟩ => ⟨S1x16, .f32⟩
  | .local _ .vmem, ⟨5, _⟩ => ⟨S1x1, .f32⟩
  | .local _ .vmem, ⟨6, _⟩ => ⟨S1024x1024, .f32⟩
  | .local _ .vmem, ⟨7, _⟩ => ⟨S1024x1024, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_cst : Ref sig .tc := ⟨.hbm, 74, rfl⟩
abbrev main_call1_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_call2_v0 : Ref sig .tc := ⟨.hbm, 95, rfl⟩
abbrev main_call2_v1 : Ref sig .tc := ⟨.hbm, 96, rfl⟩
abbrev main_v62 : Ref sig .tc := ⟨.hbm, 97, rfl⟩
abbrev main_c_13 : Ref sig .tc := ⟨.hbm, 98, rfl⟩
abbrev main_v63 : Ref sig .tc := ⟨.hbm, 99, rfl⟩
abbrev main_v64 : Ref sig .tc := ⟨.hbm, 100, rfl⟩
abbrev main_c_14 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_15 : Ref sig .tc := ⟨.hbm, 107, rfl⟩
abbrev main_v70 : Ref sig .tc := ⟨.hbm, 108, rfl⟩
abbrev main_v71 : Ref sig .tc := ⟨.hbm, 109, rfl⟩
abbrev main_c_16 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_17 : Ref sig .tc := ⟨.hbm, 119, rfl⟩
abbrev main_v80 : Ref sig .tc := ⟨.hbm, 120, rfl⟩
abbrev main_v81 : Ref sig .tc := ⟨.hbm, 121, rfl⟩
abbrev main_c_18 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_19 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_20 : Ref sig .tc := ⟨.hbm, 144, rfl⟩
abbrev main_v102 : Ref sig .tc := ⟨.hbm, 145, rfl⟩
abbrev main_cst_21 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_22 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_23 : Ref sig .tc := ⟨.hbm, 154, rfl⟩
abbrev main_call3_v0 : Ref sig .tc := ⟨.hbm, 155, rfl⟩
abbrev main_call3_v1 : Ref sig .tc := ⟨.hbm, 156, rfl⟩
abbrev main_v109 : Ref sig .tc := ⟨.hbm, 157, rfl⟩
abbrev main_c_24 : Ref sig .tc := ⟨.hbm, 158, rfl⟩
abbrev main_v110 : Ref sig .tc := ⟨.hbm, 159, rfl⟩
abbrev main_v111 : Ref sig .tc := ⟨.hbm, 160, rfl⟩
abbrev main_c_25 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_c_26 : Ref sig .tc := ⟨.hbm, 167, rfl⟩
abbrev main_v117 : Ref sig .tc := ⟨.hbm, 168, rfl⟩
abbrev main_v118 : Ref sig .tc := ⟨.hbm, 169, rfl⟩
abbrev main_c_27 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_c_28 : Ref sig .tc := ⟨.hbm, 179, rfl⟩
abbrev main_v127 : Ref sig .tc := ⟨.hbm, 180, rfl⟩
abbrev main_v128 : Ref sig .tc := ⟨.hbm, 181, rfl⟩
abbrev main_c_29 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_cst_30 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_cst_31 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_cst_32 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_c_33 : Ref sig .tc := ⟨.hbm, 221, rfl⟩
abbrev main_v164 : Ref sig .tc := ⟨.hbm, 222, rfl⟩
abbrev main_v165 : Ref sig .tc := ⟨.hbm, 223, rfl⟩
abbrev main_c_34 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_c_35 : Ref sig .tc := ⟨.hbm, 228, rfl⟩
abbrev main_v169 : Ref sig .tc := ⟨.hbm, 229, rfl⟩
abbrev main_v170 : Ref sig .tc := ⟨.hbm, 230, rfl⟩
abbrev main_c_36 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_cst_37 : Ref sig .tc := ⟨.hbm, 238, rfl⟩
abbrev main_v177 : Ref sig .tc := ⟨.hbm, 239, rfl⟩
abbrev main_v178 : Ref sig .tc := ⟨.hbm, 240, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S2x65536_S1x65536_0_0 : S2x65536.Slices ![0, 0] S1x65536
  shapeCasts_S1x65536_S65536 : S1x65536.ShapeCasts S65536
  concatenates_S65536_S2048_S67584_d0 : Shape.Concatenates [S65536, S2048] S67584 0
  slices_S2x65536_S1x65536_1_0 : S2x65536.Slices ![1, 0] S1x65536
  bcast_S_S67584 : S_.BroadcastsInDim S67584 (![] : Fin 0 → Fin S67584.rank)
  bcast_S_S2048 : S_.BroadcastsInDim S2048 (![] : Fin 0 → Fin S2048.rank)
  bcast_S67584_S67584x1_0 : S67584.BroadcastsInDim S67584x1 (![0] : Fin 1 → Fin S67584x1.rank)
  bcast_S67584x1_S67584x32_0_1 : S67584x1.BroadcastsInDim S67584x32 (![0, 1] : Fin 2 → Fin S67584x32.rank)
  bcast_S_S2048x32 : S_.BroadcastsInDim S2048x32 (![] : Fin 0 → Fin S2048x32.rank)
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S67584x1_S67584x16_0_1 : S67584x1.BroadcastsInDim S67584x16 (![0, 1] : Fin 2 → Fin S67584x16.rank)
  bcast_S_S2048x16 : S_.BroadcastsInDim S2048x16 (![] : Fin 0 → Fin S2048x16.rank)
  bcast_S16_S1x16_1 : S16.BroadcastsInDim S1x16 (![1] : Fin 1 → Fin S1x16.rank)
  bcast_S1x16_S2048x16_0_1 : S1x16.BroadcastsInDim S2048x16 (![0, 1] : Fin 2 → Fin S2048x16.rank)
  slices_S32x16_S16x16_0_0 : S32x16.Slices ![0, 0] S16x16
  slices_S32x16_S16x16_16_0 : S32x16.Slices ![16, 0] S16x16
  transposes_S2048x16_S16x2048_1_0 : S2048x16.Transposes [1, 0] S16x2048
  shapeCasts_S16x1_S16 : S16x1.ShapeCasts S16
  shapeCasts_S16_S1x16 : S16.ShapeCasts S1x16
  shapeCasts_S1_S1x1 : S1.ShapeCasts S1x1
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S1x1_S1x1_0_0 : ∀ a, (![0, 0] : Fin 2 → Nat) a + S1x1.size a ≤ S1x1.size a
  h_S1x1 : 0 < S1x1.numel
  shapeCasts_S1x1_S1x1 : S1x1.ShapeCasts S1x1
  slices_S1024x16_o0_0_S1024x1 : S1024x16.Slices ![0, 0] S1024x1
  slices_S16x1024_o0_0_S1x1024 : S16x1024.Slices ![0, 0] S1x1024
  slices_S1x16_o0_0_S1x1 : S1x16.Slices ![0, 0] S1x1
  broadcasts_S1024x1_S1024x1024 : S1024x1.Broadcasts S1024x1024
  broadcasts_S1x1024_S1024x1024 : S1x1024.Broadcasts S1024x1024
  broadcasts_S1x1_S1024x1024 : S1x1.Broadcasts S1024x1024
  slices_S1024x16_o0_1_S1024x1 : S1024x16.Slices ![0, 1] S1024x1
  slices_S16x1024_o1_0_S1x1024 : S16x1024.Slices ![1, 0] S1x1024
  slices_S1x16_o0_1_S1x1 : S1x16.Slices ![0, 1] S1x1
  slices_S1024x16_o0_2_S1024x1 : S1024x16.Slices ![0, 2] S1024x1
  slices_S16x1024_o2_0_S1x1024 : S16x1024.Slices ![2, 0] S1x1024
  slices_S1x16_o0_2_S1x1 : S1x16.Slices ![0, 2] S1x1
  slices_S1024x16_o0_3_S1024x1 : S1024x16.Slices ![0, 3] S1024x1
  slices_S16x1024_o3_0_S1x1024 : S16x1024.Slices ![3, 0] S1x1024
  slices_S1x16_o0_3_S1x1 : S1x16.Slices ![0, 3] S1x1
  slices_S1024x16_o0_4_S1024x1 : S1024x16.Slices ![0, 4] S1024x1
  slices_S16x1024_o4_0_S1x1024 : S16x1024.Slices ![4, 0] S1x1024
  slices_S1x16_o0_4_S1x1 : S1x16.Slices ![0, 4] S1x1
  slices_S1024x16_o0_5_S1024x1 : S1024x16.Slices ![0, 5] S1024x1
  slices_S16x1024_o5_0_S1x1024 : S16x1024.Slices ![5, 0] S1x1024
  slices_S1x16_o0_5_S1x1 : S1x16.Slices ![0, 5] S1x1
  slices_S1024x16_o0_6_S1024x1 : S1024x16.Slices ![0, 6] S1024x1
  slices_S16x1024_o6_0_S1x1024 : S16x1024.Slices ![6, 0] S1x1024
  slices_S1x16_o0_6_S1x1 : S1x16.Slices ![0, 6] S1x1
  slices_S1024x16_o0_7_S1024x1 : S1024x16.Slices ![0, 7] S1024x1
  slices_S16x1024_o7_0_S1x1024 : S16x1024.Slices ![7, 0] S1x1024
  slices_S1x16_o0_7_S1x1 : S1x16.Slices ![0, 7] S1x1
  slices_S1024x16_o0_8_S1024x1 : S1024x16.Slices ![0, 8] S1024x1
  slices_S16x1024_o8_0_S1x1024 : S16x1024.Slices ![8, 0] S1x1024
  slices_S1x16_o0_8_S1x1 : S1x16.Slices ![0, 8] S1x1
  slices_S1024x16_o0_9_S1024x1 : S1024x16.Slices ![0, 9] S1024x1
  slices_S16x1024_o9_0_S1x1024 : S16x1024.Slices ![9, 0] S1x1024
  slices_S1x16_o0_9_S1x1 : S1x16.Slices ![0, 9] S1x1
  slices_S1024x16_o0_10_S1024x1 : S1024x16.Slices ![0, 10] S1024x1
  slices_S16x1024_o10_0_S1x1024 : S16x1024.Slices ![10, 0] S1x1024
  slices_S1x16_o0_10_S1x1 : S1x16.Slices ![0, 10] S1x1
  slices_S1024x16_o0_11_S1024x1 : S1024x16.Slices ![0, 11] S1024x1
  slices_S16x1024_o11_0_S1x1024 : S16x1024.Slices ![11, 0] S1x1024
  slices_S1x16_o0_11_S1x1 : S1x16.Slices ![0, 11] S1x1
  slices_S1024x16_o0_12_S1024x1 : S1024x16.Slices ![0, 12] S1024x1
  slices_S16x1024_o12_0_S1x1024 : S16x1024.Slices ![12, 0] S1x1024
  slices_S1x16_o0_12_S1x1 : S1x16.Slices ![0, 12] S1x1
  slices_S1024x16_o0_13_S1024x1 : S1024x16.Slices ![0, 13] S1024x1
  slices_S16x1024_o13_0_S1x1024 : S16x1024.Slices ![13, 0] S1x1024
  slices_S1x16_o0_13_S1x1 : S1x16.Slices ![0, 13] S1x1
  slices_S1024x16_o0_14_S1024x1 : S1024x16.Slices ![0, 14] S1024x1
  slices_S16x1024_o14_0_S1x1024 : S16x1024.Slices ![14, 0] S1x1024
  slices_S1x16_o0_14_S1x1 : S1x16.Slices ![0, 14] S1x1
  slices_S1024x16_o0_15_S1024x1 : S1024x16.Slices ![0, 15] S1024x1
  slices_S16x1024_o15_0_S1x1024 : S16x1024.Slices ![15, 0] S1x1024
  slices_S1x16_o0_15_S1x1 : S1x16.Slices ![0, 15] S1x1
  inb_S1024x1024_S1024x1024_0_0 : ∀ a, (![0, 0] : Fin 2 → Nat) a + S1024x1024.size a ≤ S1024x1024.size a
  h_S1024x1024 : 0 < S1024x1024.numel
  bcast_S_S2048x2048 : S_.BroadcastsInDim S2048x2048 (![] : Fin 0 → Fin S2048x2048.rank)
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  scatter_S2048_S67584x1_S67584_n_0_0_1_wf : ScatterDims.WF S2048 S67584x1 S67584 [] [0] [0] 1
  gather_S2048_S67584x1_S67584_n_0_n_n_0_1_1_wf : GatherDims.WF S2048 S67584x1 S67584 [] [0] [] [0] [] 1 ![1]
  dot_S2048x128_S128x32_S2048x32_1_0_0_1_n_n_wf : DotDims.WF S2048x128 S128x32 S2048x32 [1] [0] [0] [1] [] []
  gather_S2048x32_S67584x1_S67584x32_1_0_n_n_0_1_132_wf : GatherDims.WF S2048x32 S67584x1 S67584x32 [1] [0] [] [0] [] 1 ![1, 32]
  scatter_S2048x32_S67584x1_S67584x32_1_0_0_1_wf : ScatterDims.WF S2048x32 S67584x1 S67584x32 [1] [0] [0] 1
  dot_S2048x32_S32x16_S2048x16_1_0_0_1_n_n_wf : DotDims.WF S2048x32 S32x16 S2048x16 [1] [0] [0] [1] [] []
  gather_S2048x16_S67584x1_S67584x16_1_0_n_n_0_1_116_wf : GatherDims.WF S2048x16 S67584x1 S67584x16 [1] [0] [] [0] [] 1 ![1, 16]
  scatter_S2048x16_S67584x1_S67584x16_1_0_0_1_wf : ScatterDims.WF S2048x16 S67584x1 S67584x16 [1] [0] [0] 1
  dot_S2048x16_S16x16_S2048x16_1_0_0_1_n_n_wf : DotDims.WF S2048x16 S16x16 S2048x16 [1] [0] [0] [1] [] []
  scatter_S2048x2048_S65536x2_S65536_n_01_01_1_wf : ScatterDims.WF S2048x2048 S65536x2 S65536 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S2048x16.size a
  hwx0_0 : ∀ i : grid0.Coords, EltTy.bits .f32 = 32 ∨ (Rect.block (s := S2048x16) S1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S16x2048.size a
  hwx0_1 : ∀ i : grid0.Coords, EltTy.bits .f32 = 32 ∨ (Rect.block (s := S16x2048) S16x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S2048x2048.size a
  hwx0_4 : ∀ i : grid0.Coords, EltTy.bits .f32 = 32 ∨ (Rect.block (s := S2048x2048) S1024x1024.size (cc0_transform_4 i) (hinb0_4 i)).WholeWords (EltTy.packing .f32)

variable [Facts₀]

def scatter_S2048_S67584x1_S67584_n_0_0_1 : ScatterDims S2048 S67584x1 S67584 where
  updateWindowDims := []
  insertedWindowDims := [0]
  scatterDimsToOperandDims := [0]
  indexVectorDim := 1
  wf := scatter_S2048_S67584x1_S67584_n_0_0_1_wf
def gather_S2048_S67584x1_S67584_n_0_n_n_0_1_1 : GatherDims S2048 S67584x1 S67584 where
  offsetDims := []
  collapsedSliceDims := [0]
  operandBatchingDims := []
  startIndicesBatchingDims := []
  startIndexMap := [0]
  indexVectorDim := 1
  sliceSizes := ![1]
  wf := gather_S2048_S67584x1_S67584_n_0_n_n_0_1_1_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def gather_S2048x32_S67584x1_S67584x32_1_0_n_n_0_1_132 : GatherDims S2048x32 S67584x1 S67584x32 where
  offsetDims := [1]
  collapsedSliceDims := [0]
  operandBatchingDims := []
  startIndicesBatchingDims := []
  startIndexMap := [0]
  indexVectorDim := 1
  sliceSizes := ![1, 32]
  wf := gather_S2048x32_S67584x1_S67584x32_1_0_n_n_0_1_132_wf
def scatter_S2048x32_S67584x1_S67584x32_1_0_0_1 : ScatterDims S2048x32 S67584x1 S67584x32 where
  updateWindowDims := [1]
  insertedWindowDims := [0]
  scatterDimsToOperandDims := [0]
  indexVectorDim := 1
  wf := scatter_S2048x32_S67584x1_S67584x32_1_0_0_1_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf
def gather_S2048x16_S67584x1_S67584x16_1_0_n_n_0_1_116 : GatherDims S2048x16 S67584x1 S67584x16 where
  offsetDims := [1]
  collapsedSliceDims := [0]
  operandBatchingDims := []
  startIndicesBatchingDims := []
  startIndexMap := [0]
  indexVectorDim := 1
  sliceSizes := ![1, 16]
  wf := gather_S2048x16_S67584x1_S67584x16_1_0_n_n_0_1_116_wf
def scatter_S2048x16_S67584x1_S67584x16_1_0_0_1 : ScatterDims S2048x16 S67584x1 S67584x16 where
  updateWindowDims := [1]
  insertedWindowDims := [0]
  scatterDimsToOperandDims := [0]
  indexVectorDim := 1
  wf := scatter_S2048x16_S67584x1_S67584x16_1_0_0_1_wf
def dot_S2048x16_S16x16_S2048x16_1_0_0_1_n_n : DotDims S2048x16 S16x16 S2048x16 where
  lhsContracting := [1]
  rhsContracting := [0]
  lhsNonContracting := [0]
  rhsNonContracting := [1]
  lhsBatch := []
  rhsBatch := []
  wf := dot_S2048x16_S16x16_S2048x16_1_0_0_1_n_n_wf
def scatter_S2048x2048_S65536x2_S65536_n_01_01_1 : ScatterDims S2048x2048 S65536x2 S65536 where
  updateWindowDims := []
  insertedWindowDims := [0, 1]
  scatterDimsToOperandDims := [0, 1]
  indexVectorDim := 1
  wf := scatter_S2048x2048_S65536x2_S65536_n_01_01_1_wf

abbrev win0_0 : Pipeline.Window sig grid0 :=
  Pipeline.Window.ofSpec (Memref.whole main_v151) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v154) S16x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v156) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v157) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v158) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x128 : Shape := ⟨2, ![2048, 128]⟩
abbrev S2048x16 : Shape := ⟨2, ![2048, 16]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S2x65536 : Shape := ⟨2, ![2, 65536]⟩
abbrev S2048 : Shape := ⟨1, ![2048]⟩
abbrev S1x65536 : Shape := ⟨2, ![1, 65536]⟩
abbrev S65536 : Shape := ⟨1, ![65536]⟩
abbrev S67584 : Shape := ⟨1, ![67584]⟩
abbrev S_ : Shape := ⟨0, ![]⟩
abbrev S67584x1 : Shape := ⟨2, ![67584, 1]⟩
abbrev S2048x32 : Shape := ⟨2, ![2048, 32]⟩
abbrev S67584x32 : Shape := ⟨2, ![67584, 32]⟩
abbrev S1x32 : Shape := ⟨2, ![1, 32]⟩
abbrev S67584x16 : Shape := ⟨2, ![67584, 16]⟩
abbrev S1x16 : Shape := ⟨2, ![1, 16]⟩
abbrev S16x16 : Shape := ⟨2, ![16, 16]⟩
abbrev S2048x1x16 : Shape := ⟨3, ![2048, 1, 16]⟩
abbrev S1x2048x16 : Shape := ⟨3, ![1, 2048, 16]⟩
abbrev S2048x2048x16 : Shape := ⟨3, ![2048, 2048, 16]⟩
abbrev S1x1x16 : Shape := ⟨3, ![1, 1, 16]⟩
abbrev S2048x2048x1 : Shape := ⟨3, ![2048, 2048, 1]⟩
abbrev S2048x2048 : Shape := ⟨2, ![2048, 2048]⟩
abbrev S65536x1 : Shape := ⟨2, ![65536, 1]⟩
abbrev S65536x2 : Shape := ⟨2, ![65536, 2]⟩

abbrev nBuf : Space → Nat
  | .hbm => 257
  | .vmem => 0
  | .smem => 0
  | _ => 0

abbrev hbmTy0_0 (i : Nat) : BufTy := match i % 128 with
  | 0 => ⟨S2048x128, .f32⟩
  | 1 => ⟨S2048x16, .f32⟩
  | 2 => ⟨S128x32, .f32⟩
  | 3 => ⟨S32, .f32⟩
  | 4 => ⟨S32x16, .f32⟩
  | 5 => ⟨S16, .f32⟩
  | 6 => ⟨S32x16, .f32⟩
  | 7 => ⟨S16, .f32⟩
  | 8 => ⟨S32x16, .f32⟩
  | 9 => ⟨S16, .f32⟩
  | 10 => ⟨S16x1, .f32⟩
  | 11 => ⟨S1, .f32⟩
  | 12 => ⟨S2x65536, .i32⟩
  | 13 => ⟨S2x65536, .i32⟩
  | 14 => ⟨S2048, .i32⟩
  | 15 => ⟨S1x65536, .i32⟩
  | 16 => ⟨S65536, .i32⟩
  | 17 => ⟨S67584, .i32⟩
  | 18 => ⟨S1x65536, .i32⟩
  | 19 => ⟨S65536, .i32⟩
  | 20 => ⟨S67584, .i32⟩
  | 21 => ⟨S_, .f32⟩
  | 22 => ⟨S67584, .f32⟩
  | 23 => ⟨S_, .f32⟩
  | 24 => ⟨S2048, .f32⟩
  | 25 => ⟨S67584x1, .i32⟩
  | 26 => ⟨S2048, .f32⟩
  | 27 => ⟨S_, .f32⟩
  | 28 => ⟨S2048, .f32⟩
  | 29 => ⟨S2048, .i1⟩
  | 30 => ⟨S2048, .f32⟩
  | 31 => ⟨S_, .f32⟩
  | 32 => ⟨S_, .f32⟩
  | 33 => ⟨S2048, .f32⟩
  | 34 => ⟨S2048, .f32⟩
  | 35 => ⟨S_, .i32⟩
  | 36 => ⟨S67584, .i32⟩
  | 37 => ⟨S67584, .i1⟩
  | 38 => ⟨S_, .i32⟩
  | 39 => ⟨S67584, .i32⟩
  | 40 => ⟨S67584, .i32⟩
  | 41 => ⟨S67584, .i32⟩
  | 42 => ⟨S67584x1, .i32⟩
  | 43 => ⟨S67584, .f32⟩
  | 44 => ⟨S_, .i32⟩
  | 45 => ⟨S67584, .i32⟩
  | 46 => ⟨S67584, .i1⟩
  | 47 => ⟨S_, .i32⟩
  | 48 => ⟨S67584, .i32⟩
  | 49 => ⟨S67584, .i32⟩
  | 50 => ⟨S67584, .i32⟩
  | 51 => ⟨S67584x1, .i32⟩
  | 52 => ⟨S67584, .f32⟩
  | 53 => ⟨S67584, .f32⟩
  | 54 => ⟨S2048x32, .f32⟩
  | 55 => ⟨S67584x1, .f32⟩
  | 56 => ⟨S_, .i32⟩
  | 57 => ⟨S67584, .i32⟩
  | 58 => ⟨S67584, .i1⟩
  | 59 => ⟨S_, .i32⟩
  | 60 => ⟨S67584, .i32⟩
  | 61 => ⟨S67584, .i32⟩
  | 62 => ⟨S67584, .i32⟩
  | 63 => ⟨S67584x1, .i32⟩
  | 64 => ⟨S67584x32, .f32⟩
  | 65 => ⟨S67584x32, .f32⟩
  | 66 => ⟨S67584x32, .f32⟩
  | 67 => ⟨S_, .f32⟩
  | 68 => ⟨S2048x32, .f32⟩
  | 69 => ⟨S67584x1, .i32⟩
  | 70 => ⟨S2048x32, .f32⟩
  | 71 => ⟨S1x32, .f32⟩
  | 72 => ⟨S2048x32, .f32⟩
  | 73 => ⟨S2048x32, .f32⟩
  | 74 => ⟨S_, .f32⟩
  | 75 => ⟨S2048x32, .f32⟩
  | 76 => ⟨S2048x32, .f32⟩
  | 77 => ⟨S2048, .i32⟩
  | 78 => ⟨S1x65536, .i32⟩
  | 79 => ⟨S65536, .i32⟩
  | 80 => ⟨S67584, .i32⟩
  | 81 => ⟨S1x65536, .i32⟩
  | 82 => ⟨S65536, .i32⟩
  | 83 => ⟨S67584, .i32⟩
  | 84 => ⟨S_, .f32⟩
  | 85 => ⟨S67584, .f32⟩
  | 86 => ⟨S_, .f32⟩
  | 87 => ⟨S2048, .f32⟩
  | 88 => ⟨S67584x1, .i32⟩
  | 89 => ⟨S2048, .f32⟩
  | 90 => ⟨S_, .f32⟩
  | 91 => ⟨S2048, .f32⟩
  | 92 => ⟨S2048, .i1⟩
  | 93 => ⟨S2048, .f32⟩
  | 94 => ⟨S_, .f32⟩
  | 95 => ⟨S_, .f32⟩
  | 96 => ⟨S2048, .f32⟩
  | 97 => ⟨S2048, .f32⟩
  | 98 => ⟨S_, .i32⟩
  | 99 => ⟨S67584, .i32⟩
  | 100 => ⟨S67584, .i1⟩
  | 101 => ⟨S_, .i32⟩
  | 102 => ⟨S67584, .i32⟩
  | 103 => ⟨S67584, .i32⟩
  | 104 => ⟨S67584, .i32⟩
  | 105 => ⟨S67584x1, .i32⟩
  | 106 => ⟨S67584, .f32⟩
  | 107 => ⟨S_, .i32⟩
  | 108 => ⟨S67584, .i32⟩
  | 109 => ⟨S67584, .i1⟩
  | 110 => ⟨S_, .i32⟩
  | 111 => ⟨S67584, .i32⟩
  | 112 => ⟨S67584, .i32⟩
  | 113 => ⟨S67584, .i32⟩
  | 114 => ⟨S67584x1, .i32⟩
  | 115 => ⟨S67584, .f32⟩
  | 116 => ⟨S67584, .f32⟩
  | 117 => ⟨S2048x16, .f32⟩
  | 118 => ⟨S67584x1, .f32⟩
  | 119 => ⟨S_, .i32⟩
  | 120 => ⟨S67584, .i32⟩
  | 121 => ⟨S67584, .i1⟩
  | 122 => ⟨S_, .i32⟩
  | 123 => ⟨S67584, .i32⟩
  | 124 => ⟨S67584, .i32⟩
  | 125 => ⟨S67584, .i32⟩
  | 126 => ⟨S67584x1, .i32⟩
  | 127 => ⟨S67584x16, .f32⟩
  | _ => ⟨S2048x128, .f32⟩

abbrev hbmTy0_1 (i : Nat) : BufTy := match i % 128 with
  | 0 => ⟨S67584x16, .f32⟩
  | 1 => ⟨S67584x16, .f32⟩
  | 2 => ⟨S_, .f32⟩
  | 3 => ⟨S2048x16, .f32⟩
  | 4 => ⟨S67584x1, .i32⟩
  | 5 => ⟨S2048x16, .f32⟩
  | 6 => ⟨S1x16, .f32⟩
  | 7 => ⟨S2048x16, .f32⟩
  | 8 => ⟨S2048x16, .f32⟩
  | 9 => ⟨S2048, .i32⟩
  | 10 => ⟨S1x65536, .i32⟩
  | 11 => ⟨S65536, .i32⟩
  | 12 => ⟨S67584, .i32⟩
  | 13 => ⟨S1x65536, .i32⟩
  | 14 => ⟨S65536, .i32⟩
  | 15 => ⟨S67584, .i32⟩
  | 16 => ⟨S_, .f32⟩
  | 17 => ⟨S67584, .f32⟩
  | 18 => ⟨S_, .f32⟩
  | 19 => ⟨S2048, .f32⟩
  | 20 => ⟨S67584x1, .i32⟩
  | 21 => ⟨S2048, .f32⟩
  | 22 => ⟨S_, .f32⟩
  | 23 => ⟨S2048, .f32⟩
  | 24 => ⟨S2048, .i1⟩
  | 25 => ⟨S2048, .f32⟩
  | 26 => ⟨S_, .f32⟩
  | 27 => ⟨S_, .f32⟩
  | 28 => ⟨S2048, .f32⟩
  | 29 => ⟨S2048, .f32⟩
  | 30 => ⟨S_, .i32⟩
  | 31 => ⟨S67584, .i32⟩
  | 32 => ⟨S67584, .i1⟩
  | 33 => ⟨S_, .i32⟩
  | 34 => ⟨S67584, .i32⟩
  | 35 => ⟨S67584, .i32⟩
  | 36 => ⟨S67584, .i32⟩
  | 37 => ⟨S67584x1, .i32⟩
  | 38 => ⟨S67584, .f32⟩
  | 39 => ⟨S_, .i32⟩
  | 40 => ⟨S67584, .i32⟩
  | 41 => ⟨S67584, .i1⟩
  | 42 => ⟨S_, .i32⟩
  | 43 => ⟨S67584, .i32⟩
  | 44 => ⟨S67584, .i32⟩
  | 45 => ⟨S67584, .i32⟩
  | 46 => ⟨S67584x1, .i32⟩
  | 47 => ⟨S67584, .f32⟩
  | 48 => ⟨S67584, .f32⟩
  | 49 => ⟨S2048x16, .f32⟩
  | 50 => ⟨S67584x1, .f32⟩
  | 51 => ⟨S_, .i32⟩
  | 52 => ⟨S67584, .i32⟩
  | 53 => ⟨S67584, .i1⟩
  | 54 => ⟨S_, .i32⟩
  | 55 => ⟨S67584, .i32⟩
  | 56 => ⟨S67584, .i32⟩
  | 57 => ⟨S67584, .i32⟩
  | 58 => ⟨S67584x1, .i32⟩
  | 59 => ⟨S67584x16, .f32⟩
  | 60 => ⟨S67584x16, .f32⟩
  | 61 => ⟨S67584x16, .f32⟩
  | 62 => ⟨S_, .f32⟩
  | 63 => ⟨S2048x16, .f32⟩
  | 64 => ⟨S67584x1, .i32⟩
  | 65 => ⟨S2048x16, .f32⟩
  | 66 => ⟨S1x16, .f32⟩
  | 67 => ⟨S2048x16, .f32⟩
  | 68 => ⟨S2048x16, .f32⟩
  | 69 => ⟨S_, .f32⟩
  | 70 => ⟨S2048x16, .f32⟩
  | 71 => ⟨S2048x16, .f32⟩
  | 72 => ⟨S2048x16, .f32⟩
  | 73 => ⟨S2048x16, .f32⟩
  | 74 => ⟨S2048x16, .f32⟩
  | 75 => ⟨S16x16, .f32⟩
  | 76 => ⟨S2048x16, .f32⟩
  | 77 => ⟨S16x16, .f32⟩
  | 78 => ⟨S2048x16, .f32⟩
  | 79 => ⟨S2048x1x16, .f32⟩
  | 80 => ⟨S1x2048x16, .f32⟩
  | 81 => ⟨S2048x2048x16, .f32⟩
  | 82 => ⟨S2048x2048x16, .f32⟩
  | 83 => ⟨S2048x2048x16, .f32⟩
  | 84 => ⟨S1x1x16, .f32⟩
  | 85 => ⟨S2048x2048x16, .f32⟩
  | 86 => ⟨S2048x2048x16, .f32⟩
  | 87 => ⟨S_, .f32⟩
  | 88 => ⟨S2048x2048x16, .f32⟩
  | 89 => ⟨S2048x2048x16, .f32⟩
  | 90 => ⟨S2048x2048x1, .f32⟩
  | 91 => ⟨S2048x2048, .f32⟩
  | 92 => ⟨S_, .f32⟩
  | 93 => ⟨S2048x2048, .f32⟩
  | 94 => ⟨S2048x2048, .f32⟩
  | 95 => ⟨S2048x2048, .f32⟩
  | 96 => ⟨S2048x2048, .f32⟩
  | 97 => ⟨S_, .f32⟩
  | 98 => ⟨S2048x2048, .f32⟩
  | 99 => ⟨S2048x2048, .f32⟩
  | 100 => ⟨S_, .f32⟩
  | 101 => ⟨S2048x2048, .f32⟩
  | 102 => ⟨S2048x2048, .f32⟩
  | 103 => ⟨S_, .f32⟩
  | 104 => ⟨S2048x2048, .f32⟩
  | 105 => ⟨S1x65536, .i32⟩
  | 106 => ⟨S65536, .i32⟩
  | 107 => ⟨S1x65536, .i32⟩
  | 108 => ⟨S65536, .i32⟩
  | 109 => ⟨S_, .i32⟩
  | 110 => ⟨S65536, .i32⟩
  | 111 => ⟨S65536, .i1⟩
  | 112 => ⟨S_, .i32⟩
  | 113 => ⟨S65536, .i32⟩
  | 114 => ⟨S65536, .i32⟩
  | 115 => ⟨S65536, .i32⟩
  | 116 => ⟨S_, .i32⟩
  | 117 => ⟨S65536, .i32⟩
  | 118 => ⟨S65536, .i1⟩
  | 119 => ⟨S_, .i32⟩
  | 120 => ⟨S65536, .i32⟩
  | 121 => ⟨S65536, .i32⟩
  | 122 => ⟨S65536, .i32⟩
  | 123 => ⟨S65536x1, .i32⟩
  | 124 => ⟨S65536x1, .i32⟩
  | 125 => ⟨S65536x2, .i32⟩
  | 126 => ⟨S_, .f32⟩
  | 127 => ⟨S65536, .f32⟩
  | _ => ⟨S2048x128, .f32⟩

abbrev hbmTy0_2 (i : Nat) : BufTy := match i % 128 with
  | 0 => ⟨S2048x2048, .f32⟩
  | _ => ⟨S2048x128, .f32⟩

abbrev hbmTy (i : Nat) : BufTy := match i / 128 with
  | 0 => hbmTy0_0 i
  | 1 => hbmTy0_1 i
  | 2 => hbmTy0_2 i
  | _ => ⟨S2048x128, .f32⟩

abbrev bufTy : (tb : Table) → Fin (tcTables nBuf tb) → BufTy
  | .hbm, ⟨i, _⟩ => hbmTy i
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_cst : Ref sig .tc := ⟨.hbm, 74, rfl⟩
abbrev main_call1_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_call2_v0 : Ref sig .tc := ⟨.hbm, 95, rfl⟩
abbrev main_call2_v1 : Ref sig .tc := ⟨.hbm, 96, rfl⟩
abbrev main_v62 : Ref sig .tc := ⟨.hbm, 97, rfl⟩
abbrev main_c_13 : Ref sig .tc := ⟨.hbm, 98, rfl⟩
abbrev main_v63 : Ref sig .tc := ⟨.hbm, 99, rfl⟩
abbrev main_v64 : Ref sig .tc := ⟨.hbm, 100, rfl⟩
abbrev main_c_14 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_15 : Ref sig .tc := ⟨.hbm, 107, rfl⟩
abbrev main_v70 : Ref sig .tc := ⟨.hbm, 108, rfl⟩
abbrev main_v71 : Ref sig .tc := ⟨.hbm, 109, rfl⟩
abbrev main_c_16 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_17 : Ref sig .tc := ⟨.hbm, 119, rfl⟩
abbrev main_v80 : Ref sig .tc := ⟨.hbm, 120, rfl⟩
abbrev main_v81 : Ref sig .tc := ⟨.hbm, 121, rfl⟩
abbrev main_c_18 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_19 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_20 : Ref sig .tc := ⟨.hbm, 144, rfl⟩
abbrev main_v102 : Ref sig .tc := ⟨.hbm, 145, rfl⟩
abbrev main_cst_21 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_22 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_23 : Ref sig .tc := ⟨.hbm, 154, rfl⟩
abbrev main_call3_v0 : Ref sig .tc := ⟨.hbm, 155, rfl⟩
abbrev main_call3_v1 : Ref sig .tc := ⟨.hbm, 156, rfl⟩
abbrev main_v109 : Ref sig .tc := ⟨.hbm, 157, rfl⟩
abbrev main_c_24 : Ref sig .tc := ⟨.hbm, 158, rfl⟩
abbrev main_v110 : Ref sig .tc := ⟨.hbm, 159, rfl⟩
abbrev main_v111 : Ref sig .tc := ⟨.hbm, 160, rfl⟩
abbrev main_c_25 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_c_26 : Ref sig .tc := ⟨.hbm, 167, rfl⟩
abbrev main_v117 : Ref sig .tc := ⟨.hbm, 168, rfl⟩
abbrev main_v118 : Ref sig .tc := ⟨.hbm, 169, rfl⟩
abbrev main_c_27 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_c_28 : Ref sig .tc := ⟨.hbm, 179, rfl⟩
abbrev main_v127 : Ref sig .tc := ⟨.hbm, 180, rfl⟩
abbrev main_v128 : Ref sig .tc := ⟨.hbm, 181, rfl⟩
abbrev main_c_29 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_cst_30 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_cst_31 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_call4_cst : Ref sig .tc := ⟨.hbm, 215, rfl⟩
abbrev main_call4_v0 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_cst_32 : Ref sig .tc := ⟨.hbm, 225, rfl⟩
abbrev main_v167 : Ref sig .tc := ⟨.hbm, 226, rfl⟩
abbrev main_v168 : Ref sig .tc := ⟨.hbm, 227, rfl⟩
abbrev main_cst_33 : Ref sig .tc := ⟨.hbm, 228, rfl⟩
abbrev main_v169 : Ref sig .tc := ⟨.hbm, 229, rfl⟩
abbrev main_v170 : Ref sig .tc := ⟨.hbm, 230, rfl⟩
abbrev main_cst_34 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_c_35 : Ref sig .tc := ⟨.hbm, 237, rfl⟩
abbrev main_v176 : Ref sig .tc := ⟨.hbm, 238, rfl⟩
abbrev main_v177 : Ref sig .tc := ⟨.hbm, 239, rfl⟩
abbrev main_c_36 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_c_37 : Ref sig .tc := ⟨.hbm, 244, rfl⟩
abbrev main_v181 : Ref sig .tc := ⟨.hbm, 245, rfl⟩
abbrev main_v182 : Ref sig .tc := ⟨.hbm, 246, rfl⟩
abbrev main_c_38 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_cst_39 : Ref sig .tc := ⟨.hbm, 254, rfl⟩
abbrev main_v189 : Ref sig .tc := ⟨.hbm, 255, rfl⟩
abbrev main_v190 : Ref sig .tc := ⟨.hbm, 256, rfl⟩

abbrev nD : Nat := 1
abbrev τ : Topo := Topo.v7x

variable {F : FTy → Type} [FloatOps F]

class Facts₀ : Prop where
  slices_S2x65536_S1x65536_0_0 : S2x65536.Slices ![0, 0] S1x65536
  shapeCasts_S1x65536_S65536 : S1x65536.ShapeCasts S65536
  concatenates_S65536_S2048_S67584_d0 : Shape.Concatenates [S65536, S2048] S67584 0
  slices_S2x65536_S1x65536_1_0 : S2x65536.Slices ![1, 0] S1x65536
  bcast_S_S67584 : S_.BroadcastsInDim S67584 (![] : Fin 0 → Fin S67584.rank)
  bcast_S_S2048 : S_.BroadcastsInDim S2048 (![] : Fin 0 → Fin S2048.rank)
  bcast_S67584_S67584x1_0 : S67584.BroadcastsInDim S67584x1 (![0] : Fin 1 → Fin S67584x1.rank)
  bcast_S67584x1_S67584x32_0_1 : S67584x1.BroadcastsInDim S67584x32 (![0, 1] : Fin 2 → Fin S67584x32.rank)
  bcast_S_S2048x32 : S_.BroadcastsInDim S2048x32 (![] : Fin 0 → Fin S2048x32.rank)
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S67584x1_S67584x16_0_1 : S67584x1.BroadcastsInDim S67584x16 (![0, 1] : Fin 2 → Fin S67584x16.rank)
  bcast_S_S2048x16 : S_.BroadcastsInDim S2048x16 (![] : Fin 0 → Fin S2048x16.rank)
  bcast_S16_S1x16_1 : S16.BroadcastsInDim S1x16 (![1] : Fin 1 → Fin S1x16.rank)
  bcast_S1x16_S2048x16_0_1 : S1x16.BroadcastsInDim S2048x16 (![0, 1] : Fin 2 → Fin S2048x16.rank)
  slices_S32x16_S16x16_0_0 : S32x16.Slices ![0, 0] S16x16
  slices_S32x16_S16x16_16_0 : S32x16.Slices ![16, 0] S16x16
  bcast_S2048x16_S2048x1x16_0_2 : S2048x16.BroadcastsInDim S2048x1x16 (![0, 2] : Fin 2 → Fin S2048x1x16.rank)
  bcast_S2048x16_S1x2048x16_1_2 : S2048x16.BroadcastsInDim S1x2048x16 (![1, 2] : Fin 2 → Fin S1x2048x16.rank)
  bcast_S2048x1x16_S2048x2048x16_0_1_2 : S2048x1x16.BroadcastsInDim S2048x2048x16 (![0, 1, 2] : Fin 3 → Fin S2048x2048x16.rank)
  bcast_S1x2048x16_S2048x2048x16_0_1_2 : S1x2048x16.BroadcastsInDim S2048x2048x16 (![0, 1, 2] : Fin 3 → Fin S2048x2048x16.rank)
  bcast_S16_S1x1x16_2 : S16.BroadcastsInDim S1x1x16 (![2] : Fin 1 → Fin S1x1x16.rank)
  bcast_S1x1x16_S2048x2048x16_0_1_2 : S1x1x16.BroadcastsInDim S2048x2048x16 (![0, 1, 2] : Fin 3 → Fin S2048x2048x16.rank)
  bcast_S_S2048x2048x16 : S_.BroadcastsInDim S2048x2048x16 (![] : Fin 0 → Fin S2048x2048x16.rank)
  shapeCasts_S2048x2048x1_S2048x2048 : S2048x2048x1.ShapeCasts S2048x2048
  shapeCasts_S1_S_ : S1.ShapeCasts S_
  bcast_S_S2048x2048 : S_.BroadcastsInDim S2048x2048 (![] : Fin 0 → Fin S2048x2048.rank)
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  scatter_S2048_S67584x1_S67584_n_0_0_1_wf : ScatterDims.WF S2048 S67584x1 S67584 [] [0] [0] 1
  gather_S2048_S67584x1_S67584_n_0_n_n_0_1_1_wf : GatherDims.WF S2048 S67584x1 S67584 [] [0] [] [0] [] 1 ![1]
  dot_S2048x128_S128x32_S2048x32_1_0_0_1_n_n_wf : DotDims.WF S2048x128 S128x32 S2048x32 [1] [0] [0] [1] [] []
  gather_S2048x32_S67584x1_S67584x32_1_0_n_n_0_1_132_wf : GatherDims.WF S2048x32 S67584x1 S67584x32 [1] [0] [] [0] [] 1 ![1, 32]
  scatter_S2048x32_S67584x1_S67584x32_1_0_0_1_wf : ScatterDims.WF S2048x32 S67584x1 S67584x32 [1] [0] [0] 1
  dot_S2048x32_S32x16_S2048x16_1_0_0_1_n_n_wf : DotDims.WF S2048x32 S32x16 S2048x16 [1] [0] [0] [1] [] []
  gather_S2048x16_S67584x1_S67584x16_1_0_n_n_0_1_116_wf : GatherDims.WF S2048x16 S67584x1 S67584x16 [1] [0] [] [0] [] 1 ![1, 16]
  scatter_S2048x16_S67584x1_S67584x16_1_0_0_1_wf : ScatterDims.WF S2048x16 S67584x1 S67584x16 [1] [0] [0] 1
  dot_S2048x16_S16x16_S2048x16_1_0_0_1_n_n_wf : DotDims.WF S2048x16 S16x16 S2048x16 [1] [0] [0] [1] [] []
  dot_S2048x2048x16_S16x1_S2048x2048x1_2_0_01_1_n_n_wf : DotDims.WF S2048x2048x16 S16x1 S2048x2048x1 [2] [0] [0, 1] [1] [] []
  scatter_S2048x2048_S65536x2_S65536_n_01_01_1_wf : ScatterDims.WF S2048x2048 S65536x2 S65536 [] [0, 1] [0, 1] 1

variable [Facts₀]

def scatter_S2048_S67584x1_S67584_n_0_0_1 : ScatterDims S2048 S67584x1 S67584 where
  updateWindowDims := []
  insertedWindowDims := [0]
  scatterDimsToOperandDims := [0]
  indexVectorDim := 1
  wf := scatter_S2048_S67584x1_S67584_n_0_0_1_wf
def gather_S2048_S67584x1_S67584_n_0_n_n_0_1_1 : GatherDims S2048 S67584x1 S67584 where
  offsetDims := []
  collapsedSliceDims := [0]
  operandBatchingDims := []
  startIndicesBatchingDims := []
  startIndexMap := [0]
  indexVectorDim := 1
  sliceSizes := ![1]
  wf := gather_S2048_S67584x1_S67584_n_0_n_n_0_1_1_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def gather_S2048x32_S67584x1_S67584x32_1_0_n_n_0_1_132 : GatherDims S2048x32 S67584x1 S67584x32 where
  offsetDims := [1]
  collapsedSliceDims := [0]
  operandBatchingDims := []
  startIndicesBatchingDims := []
  startIndexMap := [0]
  indexVectorDim := 1
  sliceSizes := ![1, 32]
  wf := gather_S2048x32_S67584x1_S67584x32_1_0_n_n_0_1_132_wf
def scatter_S2048x32_S67584x1_S67584x32_1_0_0_1 : ScatterDims S2048x32 S67584x1 S67584x32 where
  updateWindowDims := [1]
  insertedWindowDims := [0]
  scatterDimsToOperandDims := [0]
  indexVectorDim := 1
  wf := scatter_S2048x32_S67584x1_S67584x32_1_0_0_1_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf
def gather_S2048x16_S67584x1_S67584x16_1_0_n_n_0_1_116 : GatherDims S2048x16 S67584x1 S67584x16 where
  offsetDims := [1]
  collapsedSliceDims := [0]
  operandBatchingDims := []
  startIndicesBatchingDims := []
  startIndexMap := [0]
  indexVectorDim := 1
  sliceSizes := ![1, 16]
  wf := gather_S2048x16_S67584x1_S67584x16_1_0_n_n_0_1_116_wf
def scatter_S2048x16_S67584x1_S67584x16_1_0_0_1 : ScatterDims S2048x16 S67584x1 S67584x16 where
  updateWindowDims := [1]
  insertedWindowDims := [0]
  scatterDimsToOperandDims := [0]
  indexVectorDim := 1
  wf := scatter_S2048x16_S67584x1_S67584x16_1_0_0_1_wf
def dot_S2048x16_S16x16_S2048x16_1_0_0_1_n_n : DotDims S2048x16 S16x16 S2048x16 where
  lhsContracting := [1]
  rhsContracting := [0]
  lhsNonContracting := [0]
  rhsNonContracting := [1]
  lhsBatch := []
  rhsBatch := []
  wf := dot_S2048x16_S16x16_S2048x16_1_0_0_1_n_n_wf
def dot_S2048x2048x16_S16x1_S2048x2048x1_2_0_01_1_n_n : DotDims S2048x2048x16 S16x1 S2048x2048x1 where
  lhsContracting := [2]
  rhsContracting := [0]
  lhsNonContracting := [0, 1]
  rhsNonContracting := [1]
  lhsBatch := []
  rhsBatch := []
  wf := dot_S2048x2048x16_S16x1_S2048x2048x1_2_0_01_1_n_n_wf
def scatter_S2048x2048_S65536x2_S65536_n_01_01_1 : ScatterDims S2048x2048 S65536x2 S65536 where
  updateWindowDims := []
  insertedWindowDims := [0, 1]
  scatterDimsToOperandDims := [0, 1]
  indexVectorDim := 1
  wf := scatter_S2048x2048_S65536x2_S65536_n_01_01_1_wf

class Facts : Prop extends Facts₀ where

variable [Facts]
-- ==== Proof.Decoder.lean ====
/-
  The pairwise decoder of a graph auto-encoder, as one function of four small arrays.

  For a pair of nodes (i, j) the logit is the sum over the sixteen latent coordinates l of
      relu (a i l + b l j) * w l,
  plus a bias, and the predicted edge probability is the logistic function of that logit.  Here a is the first node's
  projection (with the hidden layer's bias already added), b the transposed projection of the second node, w the output
  layer's weights as one row, and the bias a single cell.

  Two spellings of this value meet in the certificate.  One accumulates the sixteen terms one after the other from zero;
  the other is a single sum over the latent axis.  One adds the hidden bias to the first projection before the second
  projection is added; the other adds it to the sum of the two.  One takes the logistic function as a single operation;
  the other spells it 1 / (1 + exp (-x)).  On the extended reals all three pairs agree without any finiteness hypothesis:
  addition there is a commutative monoid, and the logistic function is defined as that quotient.
-/
import Idealize.ShloMosaic.PureOps.Ideal
import Idealize.ShloMosaic.Lib.ValueIdx
import Idealize.ShloMosaic.Lib.IdealHost

noncomputable section

namespace Cert.Decoder

open Idealize.ShloMosaic Idealize.ShloMosaic.ValueIdx

/-- The contribution of latent coordinate `l` to the logit of the pair (i, j): relu (a i l + b l j) * w l. -/
def term {n k : Nat} (a : (⟨2, ![n, 16]⟩ : Shape).Idx → EReal) (bt : (⟨2, ![16, k]⟩ : Shape).Idx → EReal)
    (w : (⟨2, ![1, 16]⟩ : Shape).Idx → EReal) (i : Fin n) (j : Fin k) (l : Fin 16) : EReal :=
  max (a (ix2 i l) + bt (ix2 l j)) 0 * w (ix2 (0 : Fin 1) l)

/-- The predicted probability of the edge (i, j): the logistic function of the summed contributions plus the bias. -/
def prob {n k : Nat} (a : (⟨2, ![n, 16]⟩ : Shape).Idx → EReal) (bt : (⟨2, ![16, k]⟩ : Shape).Idx → EReal)
    (w : (⟨2, ![1, 16]⟩ : Shape).Idx → EReal) (c : (⟨2, ![1, 1]⟩ : Shape).Idx → EReal) (i : Fin n) (j : Fin k) : EReal :=
  Ideal.logistic ((∑ l : Fin 16, term a bt w i j l) + c (ix2 (0 : Fin 1) (0 : Fin 1)))

/-- The whole predicted adjacency matrix: the probability of every pair of the 2048 nodes. -/
def adj (a : (⟨2, ![2048, 16]⟩ : Shape).Idx → EReal) (bt : (⟨2, ![16, 2048]⟩ : Shape).Idx → EReal)
    (w : (⟨2, ![1, 16]⟩ : Shape).Idx → EReal) (c : (⟨2, ![1, 1]⟩ : Shape).Idx → EReal) :
    (⟨2, ![2048, 2048]⟩ : Shape).Idx → EReal := fun y => prob a bt w c (y 0) (y 1)

/-- Sixteen terms added one after the other, starting from zero, are their sum. -/
theorem unrolled_sum (f : Fin 16 → EReal) :
    0 + f 0 + f 1 + f 2 + f 3 + f 4 + f 5 + f 6 + f 7 + f 8 + f 9 + f 10 + f 11 + f 12 + f 13 + f 14 + f 15
      = ∑ l : Fin 16, f l := by
  simp only [Fin.sum_univ_castSucc, Fin.sum_univ_zero]
  rfl

/-- The hidden bias may be added before or after the second projection. -/
theorem bias_moves (x y d : EReal) : (x + y) + d = (x + d) + y := add_right_comm x y d

/-- The single-precision word of 1.0 denotes the number one. -/
theorem one_word : Ideal.ofBits .f32 0x3F800000#32 = 1 := by
  simp [Ideal.ofBits, Ideal.ieee, -EReal.coe_mul]; norm_num

/-- The single-precision word of +0.0 denotes zero. -/
theorem zero_word : Ideal.ofBits .f32 0x00000000#32 = 0 := Ideal.ofBits_zero_f32

/-- The quotient 1 / (1 + exp (-x)), with both ones given by their words, is the logistic function. -/
theorem spelled_logistic (x : EReal) :
    Ideal.div (Ideal.ofBits .f32 0x3F800000#32) (Ideal.ofBits .f32 0x3F800000#32 + Ideal.exp (-x)) = Ideal.logistic x := by
  rw [one_word]; rfl

end Cert.Decoder

end
-- ==== Proof.Payload.lean ====
/-
  What the decoder kernel's body stores, read at one cell of its output block.

  At a grid point the body holds a block `a` of 1024 rows of the first projection, a block `b` of 1024 columns of the
  transposed second projection, the row `w` of output weights and the bias cell.  It starts an accumulator at zero and,
  for each of the sixteen latent coordinates l in turn, adds
      relu (column l of a, spread along the rows  +  row l of b, spread down the columns) * w l ,
  then adds the bias and applies the logistic function.  Each step is a pointwise operation over column and row
  broadcasts, so at the cell (p, q) it is relu (a p l + b l q) * w l, and the sixteen accumulated steps are the sum over l.
-/
import proofs.«139212_j68092411511099_2_alg».proof.Proof.Gen.KernelIdeal.Frame
import proofs.«139212_j68092411511099_2_alg».proof.Proof.Decoder
import Idealize.ShloMosaic.Lib.ValueLayout
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx

/-- A column spread along the rows reads, at (p, q), the column at row p. -/
theorem col_bcast (v : (⟨2, ![1024, 1]⟩ : Shape).Idx → EReal) (h : (⟨2, ![1024, 1]⟩ : Shape).Broadcasts ⟨2, ![1024, 1024]⟩)
    (p q : Fin 1024) : broadcastTo ⟨2, ![1024, 1024]⟩ v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A single cell spread over the whole block reads that cell everywhere. -/
theorem cell_bcast (v : (⟨2, ![1, 1]⟩ : Shape).Idx → EReal) (h : (⟨2, ![1, 1]⟩ : Shape).Broadcasts ⟨2, ![1024, 1024]⟩)
    (p q : Fin 1024) : broadcastTo ⟨2, ![1024, 1024]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- One step of the accumulation, as a whole block: relu (column l of `v1` + row l of `v3`) * cell l of `v5`. -/
def stepv (l : Nat) (v1 : FVec Ideal S1024x16 .f32) (v3 : FVec Ideal S16x1024 .f32) (v5 : FVec Ideal S1x16 .f32)
    (h1 : S1024x16.Slices ![0, l] S1024x1) (h3 : S16x1024.Slices ![l, 0] S1x1024) (h5 : S1x16.Slices ![0, l] S1x1) :
    FVec Ideal S1024x1024 .f32 :=
  mulf (maximumf (addf (broadcastTo S1024x1024 (extractStridedSlice S1024x1 ![0, l] v1 h1) broadcasts_S1024x1_S1024x1024)
        (broadcastTo S1024x1024 (extractStridedSlice S1x1024 ![l, 0] v3 h3) broadcasts_S1x1024_S1024x1024))
      (broadcast S1024x1024 (Scalar.ofBits .f32 0x00000000#32)))
    (broadcastTo S1024x1024 (extractStridedSlice S1x1 ![0, l] v5 h5) broadcasts_S1x1_S1024x1024)

/-- The step at the cell (p, q) is the decoder's term of latent coordinate l. -/
theorem stepv_apply (l : Nat) (hl : l < 16) (v1 : FVec Ideal S1024x16 .f32) (v3 : FVec Ideal S16x1024 .f32)
    (v5 : FVec Ideal S1x16 .f32)
    (h1 : S1024x16.Slices ![0, l] S1024x1) (h3 : S16x1024.Slices ![l, 0] S1x1024) (h5 : S1x16.Slices ![0, l] S1x1)
    (p q : Fin 1024) :
    stepv l v1 v3 v5 h1 h3 h5 (ix2 p q)
      = max (v1 (ix2 p (⟨l, hl⟩ : Fin 16)) + v3 (ix2 (⟨l, hl⟩ : Fin 16) q)) 0 * v5 (ix2 (0 : Fin 1) (⟨l, hl⟩ : Fin 16)) := by
  unfold stepv
  rw [mulf_apply, maximumf_apply, addf_apply, broadcast_apply]
  rw [col_bcast, broadcastTo_1b_ab_apply, cell_bcast]
  rw [slice2_axis1_apply l v1 h1 p (0 : Fin 1) (⟨l, hl⟩ : Fin 16) (by simp),
    slice2_axis0_apply l v3 h3 (0 : Fin 1) q (⟨l, hl⟩ : Fin 16) (by simp),
    slice2_axis1_apply l v5 h5 (0 : Fin 1) (0 : Fin 1) (⟨l, hl⟩ : Fin 16) (by simp)]
  show max _ (Ideal.ofBits .f32 0x00000000#32) * _ = _
  rw [Cert.Decoder.zero_word]

theorem hz : (![0, 0] : Fin 2 → Nat) = fun _ => 0 := funext fun a => by fin_cases a <;> rfl

/-- The accumulator after the sixteen steps, in the order the body takes them, starting from zero. -/
def accv (v1 : FVec Ideal S1024x16 .f32) (v3 : FVec Ideal S16x1024 .f32) (v5 : FVec Ideal S1x16 .f32) :
    FVec Ideal S1024x1024 .f32 :=
  addf (addf (addf (addf (addf (addf (addf (addf (addf (addf (addf (addf (addf (addf (addf (addf
    (broadcast S1024x1024 (Scalar.ofBits .f32 0x00000000#32))
    (stepv 0 v1 v3 v5 slices_S1024x16_o0_0_S1024x1 slices_S16x1024_o0_0_S1x1024 slices_S1x16_o0_0_S1x1))
    (stepv 1 v1 v3 v5 slices_S1024x16_o0_1_S1024x1 slices_S16x1024_o1_0_S1x1024 slices_S1x16_o0_1_S1x1))
    (stepv 2 v1 v3 v5 slices_S1024x16_o0_2_S1024x1 slices_S16x1024_o2_0_S1x1024 slices_S1x16_o0_2_S1x1))
    (stepv 3 v1 v3 v5 slices_S1024x16_o0_3_S1024x1 slices_S16x1024_o3_0_S1x1024 slices_S1x16_o0_3_S1x1))
    (stepv 4 v1 v3 v5 slices_S1024x16_o0_4_S1024x1 slices_S16x1024_o4_0_S1x1024 slices_S1x16_o0_4_S1x1))
    (stepv 5 v1 v3 v5 slices_S1024x16_o0_5_S1024x1 slices_S16x1024_o5_0_S1x1024 slices_S1x16_o0_5_S1x1))
    (stepv 6 v1 v3 v5 slices_S1024x16_o0_6_S1024x1 slices_S16x1024_o6_0_S1x1024 slices_S1x16_o0_6_S1x1))
    (stepv 7 v1 v3 v5 slices_S1024x16_o0_7_S1024x1 slices_S16x1024_o7_0_S1x1024 slices_S1x16_o0_7_S1x1))
    (stepv 8 v1 v3 v5 slices_S1024x16_o0_8_S1024x1 slices_S16x1024_o8_0_S1x1024 slices_S1x16_o0_8_S1x1))
    (stepv 9 v1 v3 v5 slices_S1024x16_o0_9_S1024x1 slices_S16x1024_o9_0_S1x1024 slices_S1x16_o0_9_S1x1))
    (stepv 10 v1 v3 v5 slices_S1024x16_o0_10_S1024x1 slices_S16x1024_o10_0_S1x1024 slices_S1x16_o0_10_S1x1))
    (stepv 11 v1 v3 v5 slices_S1024x16_o0_11_S1024x1 slices_S16x1024_o11_0_S1x1024 slices_S1x16_o0_11_S1x1))
    (stepv 12 v1 v3 v5 slices_S1024x16_o0_12_S1024x1 slices_S16x1024_o12_0_S1x1024 slices_S1x16_o0_12_S1x1))
    (stepv 13 v1 v3 v5 slices_S1024x16_o0_13_S1024x1 slices_S16x1024_o13_0_S1x1024 slices_S1x16_o0_13_S1x1))
    (stepv 14 v1 v3 v5 slices_S1024x16_o0_14_S1024x1 slices_S16x1024_o14_0_S1x1024 slices_S1x16_o0_14_S1x1))
    (stepv 15 v1 v3 v5 slices_S1024x16_o0_15_S1024x1 slices_S16x1024_o15_0_S1x1024 slices_S1x16_o0_15_S1x1)

/-- The body's one store, over the whole output block, is the logistic function of the accumulated steps plus the bias
    cell: the store covers the block, each load reads its whole block, and the body's arithmetic is this tree. -/
theorem out_eq (x0 : Vec Ideal S1024x16 .f32) (x1 : Vec Ideal S16x1024 .f32) (x2 : Vec Ideal S1x16 .f32)
    (x3 : Vec Ideal S1x1 .f32) :
    out0_4 x0 x1 x2 x3 = logistic (addf (accv x0 x1 x2) (broadcastTo S1024x1024 x3 broadcasts_S1x1_S1024x1024)) := by
  unfold out0_4
  rw [View.canon_unit_zero hz]
  simp only [View.ld_unit_zero (S := S1024x16) hz, View.ld_unit_zero (S := S16x1024) hz, View.ld_unit_zero (S := S1x16) hz,
    View.ld_unit_zero (S := S1x1) hz]
  unfold k0_pay1 k0_pay14 k0_pay10 k0_pay6 k0_pay7 k0_pay8 k0_pay9 k0_pay11 k0_pay12 k0_pay13 k0_pay15 k0_pay16 k0_pay17
    k0_pay2 k0_pay3 k0_pay4 k0_pay5 accv stepv
  dsimp only
  simp only [shapeCast_self]

/-- The stored block at the cell (p, q): the decoder's probability for row p of `x0` and column q of `x1`. -/
theorem out_apply (x0 : Vec Ideal S1024x16 .f32) (x1 : Vec Ideal S16x1024 .f32) (x2 : Vec Ideal S1x16 .f32)
    (x3 : Vec Ideal S1x1 .f32) (p q : Fin 1024) :
    out0_4 x0 x1 x2 x3 (ix2 p q) = Cert.Decoder.prob x0 x1 x2 x3 p q := by
  rw [out_eq]
  show Ideal.logistic (accv x0 x1 x2 (ix2 p q) + broadcastTo S1024x1024 x3 broadcasts_S1x1_S1024x1024 (ix2 p q)) = _
  rw [cell_bcast]
  unfold accv
  simp only [addf_apply]
  rw [stepv_apply 0 (by decide), stepv_apply 1 (by decide), stepv_apply 2 (by decide), stepv_apply 3 (by decide),
    stepv_apply 4 (by decide), stepv_apply 5 (by decide), stepv_apply 6 (by decide), stepv_apply 7 (by decide),
    stepv_apply 8 (by decide), stepv_apply 9 (by decide), stepv_apply 10 (by decide), stepv_apply 11 (by decide),
    stepv_apply 12 (by decide), stepv_apply 13 (by decide), stepv_apply 14 (by decide), stepv_apply 15 (by decide)]
  rw [broadcast_apply]
  show Ideal.logistic ((Ideal.ofBits .f32 0x00000000#32 + _ + _ + _ + _ + _ + _ + _ + _ + _ + _ + _ + _ + _ + _ + _ + _) + _) = _
  rw [Cert.Decoder.zero_word]
  unfold Cert.Decoder.prob
  rw [← Cert.Decoder.unrolled_sum (fun l => Cert.Decoder.term x0 x1 x2 p q l)]
  rfl

end Cert.KernelIdeal.Body

end
-- ==== Proof.Blocks.lean ====
/-
  From the region's blocks to the whole predicted adjacency matrix.

  The region runs on a 2 × 2 grid.  At the point with block coordinates (bi, bj) it stages rows 1024·bi … 1024·bi + 1023
  of the first projection, columns 1024·bj … 1024·bj + 1023 of the transposed second projection, the whole weight row and
  the bias cell, and writes back the 1024 × 1024 block (bi, bj) of the result.  By the body's value at a cell, the block
  written at a point is the corresponding block of ONE matrix: the decoder's probability of the pair (i, j) computed from
  the four staged arrays.  The four blocks tile the 2048 × 2048 matrix (the point that covers (i, j) is
  (i / 1024, j / 1024)), so after the region the result array is that matrix.
-/
import proofs.«139212_j68092411511099_2_alg».proof.Proof.Gen.KernelIdeal.Frame
import proofs.«139212_j68092411511099_2_alg».proof.Proof.Decoder
import proofs.«139212_j68092411511099_2_alg».proof.Proof.Payload
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.Decoder (prob adj)

variable (m : (ℓ : Loc nD τ sig) → Buf (Elt Ideal) ℓ)

/-- A stored block whose inputs are rows `1024·bi + p` of `A`, columns `1024·bj + q` of `B`, the row `W` and the cell
    `C` holds, at (p, q), the decoder's probability of the pair (1024·bi + p, 1024·bj + q). -/
theorem block_value (x0 : Vec Ideal S1024x16 .f32) (x1 : Vec Ideal S16x1024 .f32) (x2 : Vec Ideal S1x16 .f32)
    (x3 : Vec Ideal S1x1 .f32)
    (A : S2048x16.Idx → EReal) (B : S16x2048.Idx → EReal) (W : S1x16.Idx → EReal) (C : S1x1.Idx → EReal)
    (bi bj : Nat) (hbi : bi ≤ 1) (hbj : bj ≤ 1)
    (h0 : ∀ (p : Fin 1024) (l : Fin 16), x0 (ix2 p l) = A (ix2 (⟨bi * 1024 + p.val, by omega⟩ : Fin 2048) l))
    (h1 : ∀ (l : Fin 16) (q : Fin 1024), x1 (ix2 l q) = B (ix2 l (⟨bj * 1024 + q.val, by omega⟩ : Fin 2048)))
    (h2 : ∀ l : Fin 16, x2 (ix2 (0 : Fin 1) l) = W (ix2 (0 : Fin 1) l))
    (h3 : x3 (ix2 (0 : Fin 1) (0 : Fin 1)) = C (ix2 (0 : Fin 1) (0 : Fin 1))) (p q : Fin 1024) :
    out0_4 x0 x1 x2 x3 (ix2 p q)
      = prob A B W C (⟨bi * 1024 + p.val, by omega⟩ : Fin 2048) (⟨bj * 1024 + q.val, by omega⟩ : Fin 2048) := by
  rw [Cert.KernelIdeal.Body.out_apply]
  unfold Cert.Decoder.prob Cert.Decoder.term
  simp only [h0, h1, h2, h3]

/-- The printed index maps over the four grid points: the first window follows the output's row block, the second its
    column block, the two small windows never move, and the output's block coordinates are 0 or 1. -/
theorem idx_facts : ∀ t : Fin cfg0.N, win0_0.index t (0 : Fin 2) = win0_4.index t (0 : Fin 2)
    ∧ win0_0.index t (1 : Fin 2) = 0
    ∧ win0_1.index t (0 : Fin 2) = 0
    ∧ win0_1.index t (1 : Fin 2) = win0_4.index t (1 : Fin 2)
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 1 ∧ win0_4.index t (1 : Fin 2) ≤ 1 :=
  (by decide +kernel : ∀ t : Fin grid0.N, _)

/-- Every block of the matrix is some grid point's. -/
theorem idx_onto : ∀ (q0 : Fin 2) (q1 : Fin 2), ∃ t : Fin cfg0.N, win0_4.index t = ![q0.val, q1.val] :=
  (by decide +kernel : ∀ (q0 : Fin 2) (q1 : Fin 2), ∃ t : Fin grid0.N, win0_4.index t = ![q0.val, q1.val])

/-- The first window's block at point `t`: rows of the first array from the output's row block on. -/
theorem read0 (c : Dev nD) (t : Fin cfg0.N) (p : Fin 1024) (l : Fin 16) :
    (iblk m c 0 t : Vec Ideal S1024x16 .f32) (ix2 p l)
      = (V m c main_v151 : S2048x16.Idx → EReal) (ix2 (⟨win0_4.index t (0 : Fin 2) * 1024 + p.val, by have := (idx_facts t).2.2.2.2.2.2.2.2.1; omega⟩ : Fin 2048) l) := by
  obtain ⟨e00, e01, -⟩ := idx_facts t
  unfold iblk
  rw [View.read_apply]
  show V m c main_v151 _ = V m c main_v151 _
  refine congrArg (V m c main_v151) (funext fun a => Fin.ext ?_)
  match a with
  | ⟨0, _⟩ => show win0_0.index t (0 : Fin 2) * 1024 + 1 * p.val = win0_4.index t (0 : Fin 2) * 1024 + p.val; rw [e00]; omega
  | ⟨1, _⟩ => show win0_0.index t (1 : Fin 2) * 16 + 1 * l.val = l.val; rw [e01]; omega

/-- The second window's block at point `t`: columns of the second array from the output's column block on. -/
theorem read1 (c : Dev nD) (t : Fin cfg0.N) (l : Fin 16) (q : Fin 1024) :
    (iblk m c 1 t : Vec Ideal S16x1024 .f32) (ix2 l q)
      = (V m c main_v154 : S16x2048.Idx → EReal) (ix2 l (⟨win0_4.index t (1 : Fin 2) * 1024 + q.val, by have := (idx_facts t).2.2.2.2.2.2.2.2.2; omega⟩ : Fin 2048)) := by
  obtain ⟨-, -, e10, e11, -⟩ := idx_facts t
  unfold iblk
  rw [View.read_apply]
  show V m c main_v154 _ = V m c main_v154 _
  refine congrArg (V m c main_v154) (funext fun a => Fin.ext ?_)
  match a with
  | ⟨0, _⟩ => show win0_1.index t (0 : Fin 2) * 16 + 1 * l.val = l.val; rw [e10]; omega
  | ⟨1, _⟩ => show win0_1.index t (1 : Fin 2) * 1024 + 1 * q.val = win0_4.index t (1 : Fin 2) * 1024 + q.val; rw [e11]; omega

/-- The third window's block is the whole weight row at every point. -/
theorem read2 (c : Dev nD) (t : Fin cfg0.N) (l : Fin 16) :
    (iblk m c 2 t : Vec Ideal S1x16 .f32) (ix2 (0 : Fin 1) l) = (V m c main_v156 : S1x16.Idx → EReal) (ix2 (0 : Fin 1) l) := by
  obtain ⟨-, -, -, -, e20, e21, -⟩ := idx_facts t
  unfold iblk
  rw [View.read_apply]
  show V m c main_v156 _ = V m c main_v156 _
  refine congrArg (V m c main_v156) (funext fun a => Fin.ext ?_)
  match a with
  | ⟨0, _⟩ => show win0_2.index t (0 : Fin 2) * 1 + 1 * 0 = 0; rw [e20]
  | ⟨1, _⟩ => show win0_2.index t (1 : Fin 2) * 16 + 1 * l.val = l.val; rw [e21]; omega

/-- The fourth window's block is the bias cell at every point. -/
theorem read3 (c : Dev nD) (t : Fin cfg0.N) :
    (iblk m c 3 t : Vec Ideal S1x1 .f32) (ix2 (0 : Fin 1) (0 : Fin 1)) = (V m c main_v157 : S1x1.Idx → EReal) (ix2 (0 : Fin 1) (0 : Fin 1)) := by
  obtain ⟨-, -, -, -, -, -, e30, e31, -⟩ := idx_facts t
  unfold iblk
  rw [View.read_apply]
  show V m c main_v157 _ = V m c main_v157 _
  refine congrArg (V m c main_v157) (funext fun a => Fin.ext ?_)
  match a with
  | ⟨0, _⟩ => show win0_3.index t (0 : Fin 2) * 1 + 1 * 0 = 0; rw [e30]
  | ⟨1, _⟩ => show win0_3.index t (1 : Fin 2) * 1 + 1 * 0 = 0; rw [e31]

/-- What point `t` writes back is block `t` of the one matrix `adj` of the four arrays as the region finds them. -/
theorem flushed_eq (c : Dev nD) (t : Fin cfg0.N) :
    (dats m 0 c).flushed 4 t = ((cfg0.win 4).blk t).view.read (Elt Ideal)
      (adj (V m c main_v151) (V m c main_v154) (V m c main_v156) (V m c main_v157)) := by
  show (cfg0.win 4).cut (grid0.coords t) ((dats m 0 c).after 4 t) = _
  rw [after0_4]
  obtain ⟨-, -, -, -, -, -, -, -, b0, b1⟩ := idx_facts t
  generalize hG : adj (V m c main_v151) (V m c main_v154) (V m c main_v156) (V m c main_v157) = G
  funext j
  have hp : (j 0).val < 1024 := Nat.lt_of_lt_of_le (j 0).isLt ((cfg0.win 4).xsize_le (grid0.coords t) 0)
  have hq : (j 1).val < 1024 := Nat.lt_of_lt_of_le (j 1).isLt ((cfg0.win 4).xsize_le (grid0.coords t) 1)
  have hx : (cfg0.win 4).xinj (grid0.coords t) j = ix2 (⟨(j 0).val, hp⟩ : Fin 1024) (⟨(j 1).val, hq⟩ : Fin 1024) :=
    funext fun a => Fin.ext (by match a with | ⟨0, _⟩ => rfl | ⟨1, _⟩ => rfl)
  rw [View.read_apply]
  show _ = G (((cfg0.win 4).blk t).view.emb j)
  dsimp only [Pipeline.Window.cut]
  rw [hx]
  refine (block_value (iblk m c 0 t) (iblk m c 1 t) (iblk m c 2 t) (iblk m c 3 t) (V m c main_v151) (V m c main_v154)
    (V m c main_v156) (V m c main_v157) (win0_4.index t (0 : Fin 2)) (win0_4.index t (1 : Fin 2)) b0 b1
    (read0 m c t) (read1 m c t) (read2 m c t) (read3 m c t) ⟨(j 0).val, hp⟩ ⟨(j 1).val, hq⟩).trans ?_
  have he : ((cfg0.win 4).blk t).view.emb j
      = ix2 (⟨win0_4.index t (0 : Fin 2) * 1024 + (j 0).val, by omega⟩ : Fin 2048) (⟨win0_4.index t (1 : Fin 2) * 1024 + (j 1).val, by omega⟩ : Fin 2048) := by
    funext a
    apply Fin.ext
    match a with
    | ⟨0, _⟩ => show win0_4.index t (0 : Fin 2) * 1024 + 1 * (j 0).val = win0_4.index t (0 : Fin 2) * 1024 + (j 0).val; omega
    | ⟨1, _⟩ => show win0_4.index t (1 : Fin 2) * 1024 + 1 * (j 1).val = win0_4.index t (1 : Fin 2) * 1024 + (j 1).val; omega
  rw [he, ← hG]
  rfl

/-- An index of the matrix is in point `t`'s block iff each coordinate is in the block's range on its axis. -/
theorem mem_blk (t : Fin cfg0.N) (i : S2048x2048.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v158).slice (win0_4.rect t)).set ↔ _
  rw [View.set_slice_whole, Rect.mem_set_unit]
  exact Iff.rfl

/-- Every index of the matrix lies in the block of the point (i / 1024, j / 1024), which writes back. -/
theorem cover (i : S2048x2048.Idx) : ∃ t : Fin cfg0.N, (cfg0.win 4).flush t = true ∧ i ∈ ((cfg0.win 4).blk t).view.set := by
  have hi0 : (i 0).val < 2048 := (i 0).isLt
  have hi1 : (i 1).val < 2048 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- After the region the result array is the decoder's matrix of the four arrays the region found. -/
theorem final (c : Dev nD) :
    (dats m 0 c).arrAt 4 cfg0.N = adj (V m c main_v151) (V m c main_v154) (V m c main_v156) (V m c main_v157) :=
  (dats m 0 c).arrAt_eq_of_cover 4 (adj (V m c main_v151) (V m c main_v154) (V m c main_v156) (V m c main_v157))
    (fun t _ => flushed_eq m c t) cover

end Cert.KernelIdeal.Blocks

end
-- ==== Proof.EntryHi.lean ====
/-
  The first window's array as the region finds it.

  Before the region the host runs the graph-convolution encoder, draws the latent sample z = mu + eps * exp (logvar / 2),
  projects it through the upper half of the hidden weights and adds the hidden bias to every row.  The projection is the
  same host computation the reference performs, operation for operation, so it is named by the reference's own stage
  function of the argument arrays and never opened; only the added bias row is written out.
-/
import proofs.«139212_j68092411511099_2_alg».proof.Proof.Gen.KernelIdeal.Frame
import proofs.«139212_j68092411511099_2_alg».proof.Proof.RefReadP

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 16384 in
set_option maxHeartbeats 100000000 in
/-- The array of the first window: the first projection of the latent sample with the hidden bias added to each row. -/
theorem hi_entry (c : Dev nD) :
    V m c main_v151
      = (addf (F := Ideal) (φ := .f32) (Cert.ReferenceIdeal.ReadP.val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)))
          (broadcastInDim S2048x16 ![0, 1] bcast_S1x16_S2048x16_0_1 (broadcastInDim S1x16 ![1] bcast_S16_S1x16_1 (m ((c : Thread nD τ).loc main_arg9)))) : FVec Ideal S2048x16 .f32) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  simp only [cast_eq]
  rfl

end Cert.KernelIdeal.Entry

end
-- ==== Proof.EntryHj.lean ====
/-
  The second window's array as the region finds it: the second projection of the latent sample, transposed.

  The projection through the lower half of the hidden weights is the reference's own stage function of the argument
  arrays (the same host operations, never opened); the host then transposes it so that a block of columns is a block of
  nodes.
-/
import proofs.«139212_j68092411511099_2_alg».proof.Proof.Gen.KernelIdeal.Frame
import proofs.«139212_j68092411511099_2_alg».proof.Proof.RefReadP

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 16384 in
set_option maxHeartbeats 100000000 in
/-- The array of the second window: the transposed second projection. -/
theorem hj_entry (c : Dev nD) :
    V m c main_v154
      = (transpose S16x2048 [1, 0] (Cert.ReferenceIdeal.ReadP.val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12))) transposes_S2048x16_S16x2048_1_0 : FVec Ideal S16x2048 .f32) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  simp only [cast_eq]
  rfl

end Cert.KernelIdeal.Entry

end
-- ==== Proof.EntryMuLv.lean ====
/-
  The encoder's two outputs as the host leaves them before the region: the mean and the log-variance of the latent
  distribution.  Both programs compute them by the same host operations, so each is the reference's own stage function of
  the argument arrays.
-/
import proofs.«139212_j68092411511099_2_alg».proof.Proof.Gen.KernelIdeal.Frame
import proofs.«139212_j68092411511099_2_alg».proof.Proof.RefReadP

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 16384 in
set_option maxHeartbeats 100000000 in
/-- The latent mean. -/
theorem mu_entry (c : Dev nD) :
    V m c main_v94 = Cert.ReferenceIdeal.ReadP.val_main_v94 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg12)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  simp only [cast_eq]
  rfl

set_option maxRecDepth 16384 in
set_option maxHeartbeats 100000000 in
/-- The latent log-variance. -/
theorem lv_entry (c : Dev nD) :
    V m c main_v141 = Cert.ReferenceIdeal.ReadP.val_main_v141 (F := Ideal) (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg12)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  simp only [cast_eq]
  rfl

end Cert.KernelIdeal.Entry

end
-- ==== Proof.EntrySmall.lean ====
/-
  The two small windows' arrays as the region finds them: the output layer's weights, a [16, 1] column re-laid as one
  [1, 16] row, and the output bias, a one-element vector re-laid as a [1, 1] cell.
-/
import proofs.«139212_j68092411511099_2_alg».proof.Proof.Gen.KernelIdeal.Frame
import proofs.«139212_j68092411511099_2_alg».proof.Proof.RefReadP

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 16384 in
set_option maxHeartbeats 100000000 in
/-- The output weights as one row. -/
theorem w_entry (c : Dev nD) :
    V m c main_v156 = (shapeCast S1x16 (shapeCast S16 (m ((c : Thread nD τ).loc main_arg10) : FVec Ideal S16x1 .f32) shapeCasts_S16x1_S16) shapeCasts_S16_S1x16 : FVec Ideal S1x16 .f32) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxRecDepth 16384 in
set_option maxHeartbeats 100000000 in
/-- The output bias as one cell. -/
theorem b_entry (c : Dev nD) :
    V m c main_v157 = (shapeCast S1x1 (m ((c : Thread nD τ).loc main_arg11) : FVec Ideal S1 .f32) shapeCasts_S1_S1x1 : FVec Ideal S1x1 .f32) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

end Cert.KernelIdeal.Entry

end
-- ==== Proof.RefRead.lean ====
/-
  The decoder of the reference program, read at one pair of nodes.

  The reference computes, for nodes i and j, the two sixteen-column projections of the latent array at rows i and j,
  adds them and the hidden bias, clamps at zero, contracts the sixteen columns against the output weights, adds the
  output bias, and spells the logistic function as 1 / (1 + exp (-x)).  Between these arithmetic steps sit layout
  steps (broadcasts, a reshape that drops a unit axis, a reshape of the one-cell bias to a scalar); each reads its
  operand at an index computed from the result's index, and here those indices are identified with plain coordinates.
  The two projections stay opaque: nothing below them is opened.
-/
import proofs.«139212_j68092411511099_2_alg».proof.Proof.RefReadP
import Idealize.ShloMosaic.Lib.ValueIdx
import Idealize.ShloMosaic.Lib.Pipeline.Value
import Idealize.ShloMosaic.Lib.IdealHost

noncomputable section
namespace Cert.ReferenceIdeal.RefValue
open Cert.ReferenceIdeal Cert.ReferenceIdeal.ReadP Idealize.ShloMosaic Idealize.ShloMosaic.ValueIdx

/-! ## Index equations: each composed layout index is a plain tuple of coordinates -/

/-- The first projection, broadcast along the second node axis, is read at (i, l). -/
theorem idx_first (i j : Fin 2048) (l : Fin 16) :
    idx_main_v151 (idx_main_v153 (ix3 i j l)) = ix2 i l :=
  funext fun a => by match a with | ⟨0, _⟩ => rfl | ⟨1, _⟩ => rfl

/-- The second projection, broadcast along the first node axis, is read at (j, l). -/
theorem idx_second (i j : Fin 2048) (l : Fin 16) :
    idx_main_v152 (idx_main_v154 (ix3 i j l)) = ix2 j l :=
  funext fun a => by match a with | ⟨0, _⟩ => rfl | ⟨1, _⟩ => rfl

/-- The hidden bias, broadcast along both node axes, is read at l. -/
theorem idx_bias (i j : Fin 2048) (l : Fin 16) :
    idx_main_v156 (idx_main_v157 (ix3 i j l)) = ix1 l :=
  funext fun a => by match a with | ⟨0, _⟩ => rfl

/-- The contraction's left operand at (i, j, ·) and summand l is read at (i, j, l). -/
theorem idx_left (i j : Fin 2048) (l : Fin 16) :
    lidx_main_v160 (ix3 i j (0 : Fin 1)) l = ix3 i j l :=
  funext fun a => by match a with | ⟨0, _⟩ => rfl | ⟨1, _⟩ => rfl | ⟨2, _⟩ => rfl

/-- The contraction's right operand at summand l is read at (l, 0). -/
theorem idx_right (i j : Fin 2048) (l : Fin 16) :
    ridx_main_v160 (ix3 i j (0 : Fin 1)) l = ix2 l (0 : Fin 1) :=
  funext fun a => by match a with | ⟨0, _⟩ => rfl | ⟨1, _⟩ => rfl

/-- Dropping the trailing unit axis: position i * 2048 + j of the flat order is (i, j, 0). -/
theorem idx_drop (i j : Fin 2048) :
    idx_main_v161 (ix2 i j) = ix3 i j (0 : Fin 1) :=
  funext fun a => by
    match a with
    | ⟨0, _⟩ =>
      refine Fin.ext ?_
      show (i.val * 2048 + j.val) / 2048 = i.val
      have hj : j.val < 2048 := j.isLt
      omega
    | ⟨1, _⟩ =>
      refine Fin.ext ?_
      show (i.val * 2048 + j.val) / 1 % 2048 = j.val
      have hj : j.val < 2048 := j.isLt
      omega
    | ⟨2, _⟩ => rfl

/-! ## The words of one and zero -/

/-- The single-precision word of 1.0 denotes the number one. -/
theorem word_one : Ideal.ofBits .f32 0x3F800000#32 = 1 := by
  simp [Ideal.ofBits, Ideal.ieee, -EReal.coe_mul]; norm_num

/-- The quotient 1 / (1 + exp (-x)), with both ones given by their words, is the logistic function. -/
theorem quotient_logistic (x : EReal) :
    Ideal.div (Ideal.ofBits .f32 0x3F800000#32) (Ideal.ofBits .f32 0x3F800000#32 + Ideal.exp (-x)) = Ideal.logistic x := by
  rw [word_one]; rfl

/-! ## The stages at plain coordinates -/

/-- The one-cell output bias reshaped to a scalar is that cell: both flat positions are 0. -/
theorem bias_scalar (x11 : (⟨S1, .f32⟩ : BufTy).Contents (Elt Ideal)) (j : S_.Idx) :
    val_main_v162 (F := Ideal) x11 j = x11 (ix1 (0 : Fin 1)) := by
  unfold val_main_v162
  exact shapeCast_apply x11 _ j (ix1 (0 : Fin 1))
    (by rw [Shape.rowMajor_val_one]; exact (Shape.rowMajorPi_zero _ j).symm)

/-- The hidden layer at (i, j, l): the two projections plus the hidden bias, clamped at zero. -/
theorem hidden_apply
    (x0 : (⟨S2048x128, .f32⟩ : BufTy).Contents (Elt Ideal)) (x1 : (⟨S2048x16, .f32⟩ : BufTy).Contents (Elt Ideal))
    (x2 : (⟨S128x32, .f32⟩ : BufTy).Contents (Elt Ideal)) (x3 : (⟨S32, .f32⟩ : BufTy).Contents (Elt Ideal))
    (x4 : (⟨S32x16, .f32⟩ : BufTy).Contents (Elt Ideal)) (x5 : (⟨S16, .f32⟩ : BufTy).Contents (Elt Ideal))
    (x6 : (⟨S32x16, .f32⟩ : BufTy).Contents (Elt Ideal)) (x7 : (⟨S16, .f32⟩ : BufTy).Contents (Elt Ideal))
    (x8 : (⟨S32x16, .f32⟩ : BufTy).Contents (Elt Ideal)) (x9 : (⟨S16, .f32⟩ : BufTy).Contents (Elt Ideal))
    (x12 : (⟨S2x65536, .i32⟩ : BufTy).Contents (Elt Ideal)) (i j : Fin 2048) (l : Fin 16) :
    val_main_v159 (F := Ideal) x0 x1 x2 x3 x4 x5 x6 x7 x8 x9 x12 (ix3 i j l)
      = max ((val_main_v148 (F := Ideal) x0 x1 x2 x3 x4 x5 x6 x7 x8 x12 (ix2 i l)
              + val_main_v150 (F := Ideal) x0 x1 x2 x3 x4 x5 x6 x7 x8 x12 (ix2 j l)) + x9 (ix1 l)) 0 := by
  rw [val_main_v159_apply, val_main_v158_apply, val_main_v155_apply, val_main_v153_apply, val_main_v154_apply,
    val_main_v151_apply, val_main_v152_apply, val_main_v157_apply, val_main_v156_apply, val_main_call4_v0_apply,
    val_main_call4_cst_apply, idx_first, idx_second, idx_bias]
  generalize val_main_v148 (F := Ideal) x0 x1 x2 x3 x4 x5 x6 x7 x8 x12 = y148
  generalize val_main_v150 (F := Ideal) x0 x1 x2 x3 x4 x5 x6 x7 x8 x12 = y150
  simp only [Ideal.maximumf_def, Ideal.addf_def, Ideal.ofBits_def, Ideal.ofBits_zero_f32]

/-- The logit before the output bias at (i, j, 0): the hidden layer contracted against the output weights. -/
theorem logit_apply
    (x0 : (⟨S2048x128, .f32⟩ : BufTy).Contents (Elt Ideal)) (x1 : (⟨S2048x16, .f32⟩ : BufTy).Contents (Elt Ideal))
    (x2 : (⟨S128x32, .f32⟩ : BufTy).Contents (Elt Ideal)) (x3 : (⟨S32, .f32⟩ : BufTy).Contents (Elt Ideal))
    (x4 : (⟨S32x16, .f32⟩ : BufTy).Contents (Elt Ideal)) (x5 : (⟨S16, .f32⟩ : BufTy).Contents (Elt Ideal))
    (x6 : (⟨S32x16, .f32⟩ : BufTy).Contents (Elt Ideal)) (x7 : (⟨S16, .f32⟩ : BufTy).Contents (Elt Ideal))
    (x8 : (⟨S32x16, .f32⟩ : BufTy).Contents (Elt Ideal)) (x9 : (⟨S16, .f32⟩ : BufTy).Contents (Elt Ideal))
    (x10 : (⟨S16x1, .f32⟩ : BufTy).Contents (Elt Ideal)) (x12 : (⟨S2x65536, .i32⟩ : BufTy).Contents (Elt Ideal)) (i j : Fin 2048) :
    val_main_v160 (F := Ideal) x0 x1 x2 x3 x4 x5 x6 x7 x8 x9 x10 x12 (ix3 i j (0 : Fin 1))
      = ∑ l : Fin 16,
          max ((val_main_v148 (F := Ideal) x0 x1 x2 x3 x4 x5 x6 x7 x8 x12 (ix2 i l)
                + val_main_v150 (F := Ideal) x0 x1 x2 x3 x4 x5 x6 x7 x8 x12 (ix2 j l)) + x9 (ix1 l)) 0
            * x10 (ix2 l (0 : Fin 1)) := by
  rw [val_main_v160_apply]
  refine Finset.sum_congr rfl fun l _ => ?_
  rw [idx_left, idx_right, hidden_apply]

/-- The reference's predicted edge probability at (i, j): the logistic function of the summed hidden layer plus the
    output bias, in terms of the two projections of the latent array. -/
theorem adj_pred_apply
    (x0 : (⟨S2048x128, .f32⟩ : BufTy).Contents (Elt Ideal)) (x1 : (⟨S2048x16, .f32⟩ : BufTy).Contents (Elt Ideal))
    (x2 : (⟨S128x32, .f32⟩ : BufTy).Contents (Elt Ideal)) (x3 : (⟨S32, .f32⟩ : BufTy).Contents (Elt Ideal))
    (x4 : (⟨S32x16, .f32⟩ : BufTy).Contents (Elt Ideal)) (x5 : (⟨S16, .f32⟩ : BufTy).Contents (Elt Ideal))
    (x6 : (⟨S32x16, .f32⟩ : BufTy).Contents (Elt Ideal)) (x7 : (⟨S16, .f32⟩ : BufTy).Contents (Elt Ideal))
    (x8 : (⟨S32x16, .f32⟩ : BufTy).Contents (Elt Ideal)) (x9 : (⟨S16, .f32⟩ : BufTy).Contents (Elt Ideal))
    (x10 : (⟨S16x1, .f32⟩ : BufTy).Contents (Elt Ideal)) (x11 : (⟨S1, .f32⟩ : BufTy).Contents (Elt Ideal))
    (x12 : (⟨S2x65536, .i32⟩ : BufTy).Contents (Elt Ideal)) (i j : Fin 2048) :
    val_main_v170 (F := Ideal) x0 x1 x2 x3 x4 x5 x6 x7 x8 x9 x10 x11 x12 (ix2 i j)
      = Ideal.logistic ((∑ l : Fin 16,
            max ((val_main_v148 (F := Ideal) x0 x1 x2 x3 x4 x5 x6 x7 x8 x12 (ix2 i l)
                  + val_main_v150 (F := Ideal) x0 x1 x2 x3 x4 x5 x6 x7 x8 x12 (ix2 j l)) + x9 (ix1 l)) 0
              * x10 (ix2 l (0 : Fin 1)))
          + x11 (ix1 (0 : Fin 1))) := by
  rw [val_main_v170_apply, val_main_v169_apply, val_main_cst_33_apply, val_main_v168_apply, val_main_v167_apply,
    val_main_cst_32_apply, val_main_v166_apply, val_main_v165_apply, val_main_v164_apply, val_main_v161_apply,
    val_main_v163_apply, bias_scalar, idx_drop, logit_apply]
  generalize val_main_v148 (F := Ideal) x0 x1 x2 x3 x4 x5 x6 x7 x8 x12 = y148
  generalize val_main_v150 (F := Ideal) x0 x1 x2 x3 x4 x5 x6 x7 x8 x12 = y150
  simp only [Ideal.hostDivf_def, Ideal.ofBits_def, Ideal.addf_def, Ideal.hostUnary_exp_def, Ideal.hostNegf_def,
    Ideal.negf_def]
  exact quotient_logistic _

end Cert.ReferenceIdeal.RefValue
end
-- ==== Proof.Bridge.lean ====
/-
  The two spellings of the decoder are one function of the argument arrays.

  The kernel's program hands its region four arrays: the first projection of the latent sample with the hidden bias
  added to every row, the second projection transposed, the output weights re-laid from a column to a row, and the output
  bias re-laid to a cell; the region's blocks then fill the matrix `Decoder.adj` of those four.  The reference adds the
  two projections and the bias along a third axis, applies relu, contracts the latent axis against the weight column,
  adds the bias and takes 1 / (1 + exp (-x)).  At every pair (i, j) both are the logistic function of
      sum over l of relu (hi i l + hj j l + b l) * w l   +   the output bias,
  the kernel's side with the hidden bias associated to the first projection.  Moving it is associativity and
  commutativity of addition on the extended reals; no finiteness is used.  The two projections themselves are never
  opened: they are the same stage functions of the argument arrays on both sides.
-/
import proofs.«139212_j68092411511099_2_alg».proof.Proof.Gen.KernelIdeal
import proofs.«139212_j68092411511099_2_alg».proof.Proof.RefReadP
import proofs.«139212_j68092411511099_2_alg».proof.Proof.Decoder
import proofs.«139212_j68092411511099_2_alg».proof.Proof.RefRead
import Idealize.ShloMosaic.Lib.Pipeline.Value
import Idealize.ShloMosaic.Lib.ValueIdx
import Idealize.ShloMosaic.Lib.ValueLayout

noncomputable section

namespace Cert.Bridge

open Idealize.ShloMosaic Idealize.ShloMosaic.ValueIdx

section Arrays

open Cert.KernelIdeal Cert.KernelIdeal.Gen

/-- A bias vector spread over the rows, added to a [2048, 16] array, adds entry l of the vector at (i, l). -/
theorem hi_apply (H : S2048x16.Idx → EReal) (b : S16.Idx → EReal) (i : Fin 2048) (l : Fin 16) :
    addf (F := Ideal) (φ := .f32) H
        (broadcastInDim S2048x16 ![0, 1] bcast_S1x16_S2048x16_0_1 (broadcastInDim S1x16 ![1] bcast_S16_S1x16_1 b)) (ix2 i l)
      = H (ix2 i l) + b (ix1 l) := by
  rw [addf_apply]
  refine congrArg (H (ix2 i l) + ·) ?_
  refine (broadcastInDim_apply _ bcast_S1x16_S2048x16_0_1 _ (ix2 i l) (ix2 (0 : Fin 1) l) (fun a => ?_)).trans ?_
  · match a with
    | ⟨0, _⟩ => rfl
    | ⟨1, _⟩ => rfl
  · exact broadcastInDim_apply _ bcast_S16_S1x16_1 b (ix2 (0 : Fin 1) l) (ix1 l) (fun a => by match a with | ⟨0, _⟩ => rfl)

/-- The transposed array at (l, j) is the array at (j, l). -/
theorem hj_apply (H : S2048x16.Idx → EReal) (l : Fin 16) (j : Fin 2048) :
    transpose S16x2048 [1, 0] H transposes_S2048x16_S16x2048_1_0 (ix2 l j) = H (ix2 j l) :=
  transpose_apply [1, 0] H transposes_S2048x16_S16x2048_1_0 (ix2 l j) (ix2 j l) (fun b => by
    match b with
    | ⟨0, _⟩ => rfl
    | ⟨1, _⟩ => rfl)

/-- The weight column re-laid as a row: entry (0, l) of the row is entry (l, 0) of the column. -/
theorem w_apply (w : S16x1.Idx → EReal) (l : Fin 16) :
    shapeCast S1x16 (shapeCast S16 w shapeCasts_S16x1_S16) shapeCasts_S16_S1x16 (ix2 (0 : Fin 1) l) = w (ix2 l (0 : Fin 1)) := by
  rw [shapeCast_a_1a_apply]
  exact shapeCast_apply w shapeCasts_S16x1_S16 (ix1 l) (ix2 l (0 : Fin 1)) (by
    rw [Shape.rowMajor_val_two, Shape.rowMajor_val_one]
    show l.val * 1 + 0 = l.val
    omega)

/-- The bias re-laid as a cell. -/
theorem b_apply (b : S1.Idx → EReal) :
    shapeCast S1x1 b shapeCasts_S1_S1x1 (ix2 (0 : Fin 1) (0 : Fin 1)) = b (ix1 (0 : Fin 1)) :=
  shapeCast_a_1a_apply b shapeCasts_S1_S1x1 (0 : Fin 1) (0 : Fin 1)

end Arrays

open Cert.ReferenceIdeal Cert.ReferenceIdeal.ReadP

/-- The matrix the kernel's blocks fill, at the four arrays the kernel's host prefix computes, is the reference's last
    stage: the same function of the argument arrays. -/
theorem adj_bridge
    (x0 : (⟨S2048x128, .f32⟩ : BufTy).Contents (Elt Ideal)) (x1 : (⟨S2048x16, .f32⟩ : BufTy).Contents (Elt Ideal))
    (x2 : (⟨S128x32, .f32⟩ : BufTy).Contents (Elt Ideal)) (x3 : (⟨S32, .f32⟩ : BufTy).Contents (Elt Ideal))
    (x4 : (⟨S32x16, .f32⟩ : BufTy).Contents (Elt Ideal)) (x5 : (⟨S16, .f32⟩ : BufTy).Contents (Elt Ideal))
    (x6 : (⟨S32x16, .f32⟩ : BufTy).Contents (Elt Ideal)) (x7 : (⟨S16, .f32⟩ : BufTy).Contents (Elt Ideal))
    (x8 : (⟨S32x16, .f32⟩ : BufTy).Contents (Elt Ideal)) (x9 : (⟨S16, .f32⟩ : BufTy).Contents (Elt Ideal))
    (x10 : (⟨S16x1, .f32⟩ : BufTy).Contents (Elt Ideal)) (x11 : (⟨S1, .f32⟩ : BufTy).Contents (Elt Ideal))
    (x12 : (⟨S2x65536, .i32⟩ : BufTy).Contents (Elt Ideal)) :
    Cert.Decoder.adj
        (addf (F := Ideal) (φ := .f32) (val_main_v148 (F := Ideal) x0 x1 x2 x3 x4 x5 x6 x7 x8 x12)
          (broadcastInDim Cert.KernelIdeal.S2048x16 ![0, 1] Cert.KernelIdeal.Gen.bcast_S1x16_S2048x16_0_1
            (broadcastInDim Cert.KernelIdeal.S1x16 ![1] Cert.KernelIdeal.Gen.bcast_S16_S1x16_1 x9)))
        (transpose Cert.KernelIdeal.S16x2048 [1, 0] (val_main_v150 (F := Ideal) x0 x1 x2 x3 x4 x5 x6 x7 x8 x12)
          Cert.KernelIdeal.Gen.transposes_S2048x16_S16x2048_1_0)
        (shapeCast Cert.KernelIdeal.S1x16 (shapeCast Cert.KernelIdeal.S16 x10 Cert.KernelIdeal.Gen.shapeCasts_S16x1_S16)
          Cert.KernelIdeal.Gen.shapeCasts_S16_S1x16)
        (shapeCast Cert.KernelIdeal.S1x1 x11 Cert.KernelIdeal.Gen.shapeCasts_S1_S1x1)
      = val_main_v170 (F := Ideal) x0 x1 x2 x3 x4 x5 x6 x7 x8 x9 x10 x11 x12 := by
  funext y
  obtain ⟨i, j, rfl⟩ : ∃ (i j : Fin 2048), y = ix2 i j := ⟨y 0, y 1, eq_ix2 y⟩
  rw [Cert.ReferenceIdeal.RefValue.adj_pred_apply]
  generalize val_main_v148 (F := Ideal) x0 x1 x2 x3 x4 x5 x6 x7 x8 x12 = HI
  generalize val_main_v150 (F := Ideal) x0 x1 x2 x3 x4 x5 x6 x7 x8 x12 = HJ
  show Ideal.logistic ((∑ l : Fin 16, Cert.Decoder.term _ _ _ i j l) + _) = _
  refine congrArg Ideal.logistic ?_
  refine congrArg₂ (· + ·) (Finset.sum_congr rfl fun l _ => ?_) (b_apply x11)
  unfold Cert.Decoder.term
  rw [hi_apply, hj_apply, w_apply, Cert.Decoder.bias_moves (HI (ix2 i l)) (HJ (ix2 j l)) (x9 (ix1 l))]

end Cert.Bridge

end
-- ==== Proof.KernelRun.lean ====
/-
  The kernel's program, run, with each of its four results named as a function of the argument arrays.

  The program is a stretch of host operations (the encoder, the latent sample and the two decoder projections), one
  region whose blocks fill the predicted adjacency matrix, and a last stretch of host operations that scatters ones into
  the true adjacency matrix.  After the run:
  * the predicted matrix is what the region's blocks wrote, which is the decoder's function of the four arrays the first
    stretch computed, which is the reference's last stage of the argument arrays;
  * the true matrix is the last stretch's scatter of the second edge list, which reads no array of the region;
  * the latent mean and log-variance are as the first stretch left them: the last stretch does not write them and the
    region does not stage them;
  * the arguments are unchanged.
-/
import proofs.«139212_j68092411511099_2_alg».proof.Proof.Gen.KernelIdeal.Frame
import proofs.«139212_j68092411511099_2_alg».proof.Proof.RefReadP
import proofs.«139212_j68092411511099_2_alg».proof.Proof.Decoder
import proofs.«139212_j68092411511099_2_alg».proof.Proof.Blocks
import proofs.«139212_j68092411511099_2_alg».proof.Proof.EntryHi
import proofs.«139212_j68092411511099_2_alg».proof.Proof.EntryHj
import proofs.«139212_j68092411511099_2_alg».proof.Proof.EntryMuLv
import proofs.«139212_j68092411511099_2_alg».proof.Proof.EntrySmall
import proofs.«139212_j68092411511099_2_alg».proof.Proof.Bridge

noncomputable section

namespace Cert.KernelIdeal.Run

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The predicted adjacency matrix after the run is the reference's last stage of the argument arrays. -/
theorem adj_pred_final (c : Dev nD) :
    (dats m 0 c).arrAt 4 cfg0.N = Cert.ReferenceIdeal.ReadP.val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (Cert.KernelIdeal.Blocks.final m c).trans
    ((congr (congr (congr (congrArg Cert.Decoder.adj (Cert.KernelIdeal.Entry.hi_entry m c))
        (Cert.KernelIdeal.Entry.hj_entry m c)) (Cert.KernelIdeal.Entry.w_entry m c)) (Cert.KernelIdeal.Entry.b_entry m c)).trans
      (Cert.Bridge.adj_bridge _ _ _ _ _ _ _ _ _ _ _ _ _))

/-- The latent mean is not touched after the first stretch of host operations. -/
theorem tail_mu (c : Dev nD) :
    Pipeline.afterTail₀ cfgs (dats m) 0 (V0 m) [hostOps1] c main_v94
      = Cert.ReferenceIdeal.ReadP.val_main_v94 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg12)) := by
  unfold Pipeline.afterTail₀
  rw [StableHlo.after_of_forall_not_mem (b := Proc.devRef .tc main_v94) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v94 (by exact (by decide : ∀ w, Pipeline.arrRef spec0 w ≠ main_v94))]
  exact Cert.KernelIdeal.Entry.mu_entry m c

/-- Nor is the latent log-variance. -/
theorem tail_lv (c : Dev nD) :
    Pipeline.afterTail₀ cfgs (dats m) 0 (V0 m) [hostOps1] c main_v141
      = Cert.ReferenceIdeal.ReadP.val_main_v141 (F := Ideal) (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg12)) := by
  unfold Pipeline.afterTail₀
  rw [StableHlo.after_of_forall_not_mem (b := Proc.devRef .tc main_v141) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v141 (by exact (by decide : ∀ w, Pipeline.arrRef spec0 w ≠ main_v141))]
  exact Cert.KernelIdeal.Entry.lv_entry m c

set_option maxHeartbeats 20000000 in
/-- The last stretch of host operations, from ANY contents: its scatter result is the reference's last scatter stage of
    whatever the second edge list's buffer holds; it reads no other buffer. -/
theorem tail_general (W : Valuation τ sig (Elt Ideal)) :
    StableHlo.after (hostOps1 (F := Ideal)) W (Proc.devRef .tc main_v178)
      = Cert.ReferenceIdeal.ReadP.val_main_v190 (F := Ideal) (W (Proc.devRef .tc main_arg13)) := by
  simp only [hostOps1]
  after_results_simp
  rfl

/-- The true adjacency matrix: the last stretch scatters a one for every edge of the second edge list into a zero
    matrix, and that argument is neither an array of the region nor written before it. -/
theorem tail_adj_true (c : Dev nD) :
    Pipeline.afterTail₀ cfgs (dats m) 0 (V0 m) [hostOps1] c main_v178
      = Cert.ReferenceIdeal.ReadP.val_main_v190 (F := Ideal) (m ((c : Thread nD τ).loc main_arg13)) := by
  unfold Pipeline.afterTail₀
  simp only [List.flatten_cons, List.flatten_nil, List.append_nil]
  rw [tail_general]
  rw [Pipeline.withArrays_of_ne _ c (V0 m c) _ main_arg13 (by exact (by decide : ∀ w, Pipeline.arrRef spec0 w ≠ main_arg13))]
  exact congrArg _ (V_main_arg13 m c)

/-- The run of the kernel's program: every weakly fair execution terminates with the four results at the reference's
    stage functions of the argument arrays and the arguments unchanged. -/
theorem run : θ_run defs (onTc (τ := τ) (main (F := Ideal))) ⟨m, fun _ => 0, ρ⟩ fun r => ∀ c : Dev nD,
      r.2.mem ((c : Thread nD τ).loc main_v158) = Cert.ReferenceIdeal.ReadP.val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c : Thread nD τ).loc main_v178) = Cert.ReferenceIdeal.ReadP.val_main_v190 (F := Ideal) (m ((c : Thread nD τ).loc main_arg13))
      ∧ r.2.mem ((c : Thread nD τ).loc main_v94) = Cert.ReferenceIdeal.ReadP.val_main_v94 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg12))
      ∧ r.2.mem ((c : Thread nD τ).loc main_v141) = Cert.ReferenceIdeal.ReadP.val_main_v141 (F := Ideal) (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨((h c).1 4).trans (adj_pred_final m c),
      ((h c).2 main_v178 (Pipeline.mem_restRefs_of main_v178 (by decide) (by decide))).trans (tail_adj_true m c),
      ((h c).2 main_v94 (Pipeline.mem_restRefs_of main_v94 (by decide) (by decide))).trans (tail_mu m c),
      ((h c).2 main_v141 (Pipeline.mem_restRefs_of main_v141 (by decide) (by decide))).trans (tail_lv m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c)⟩)
    (run_main m ρ)

end Cert.KernelIdeal.Run

end
-- ==== Proof.lean ====
/-
  A graph auto-encoder: a three-layer graph-convolution encoder producing the mean and log-variance of a latent
  distribution, a latent sample, and a pairwise decoder that turns every pair of the 2048 nodes into an edge probability,
  beside the true adjacency matrix scattered from a second edge list.  The kernel's program runs the decoder's inner part
  as a region over 1024 × 1024 blocks and everything else on the host; the reference runs everything on the host.

  The claim: at the exact instance (floats as extended reals) the two programs end with equal results.
  * The encoder, the latent sample and the two decoder projections are the SAME host operations in both programs; they
    are carried as the reference's stage functions of the argument arrays and never opened.
  * The true adjacency matrix is the same scatter in both.
  * The predicted matrix: the kernel adds the hidden bias to the first projection before the region, accumulates the
    sixteen latent terms one after the other and takes the logistic function as one operation; the reference adds the
    bias to the sum of the projections, contracts the latent axis in one sum and spells the logistic function
    1 / (1 + exp (-x)).  These agree by associativity and commutativity of addition on the extended reals and the
    definition of the logistic function; finiteness of the inputs is not used.
  The three programs' termination and unchanged arguments are the frames; the kernel's idealization rewrote nothing.
-/
import proofs.«139212_j68092411511099_2_alg».proof.Defs
import proofs.«139212_j68092411511099_2_alg».proof.Proof.Gen.Kernel
import proofs.«139212_j68092411511099_2_alg».proof.Proof.Gen.Kernel.Skeleton
import proofs.«139212_j68092411511099_2_alg».proof.Proof.Gen.Kernel.Launch
import proofs.«139212_j68092411511099_2_alg».proof.Proof.Gen.Kernel.Points
import proofs.«139212_j68092411511099_2_alg».proof.Proof.Gen.Kernel.Frame
import proofs.«139212_j68092411511099_2_alg».proof.Proof.Gen.KernelIdeal
import proofs.«139212_j68092411511099_2_alg».proof.Proof.Gen.KernelIdeal.Skeleton
import proofs.«139212_j68092411511099_2_alg».proof.Proof.Gen.KernelIdeal.Launch
import proofs.«139212_j68092411511099_2_alg».proof.Proof.Gen.KernelIdeal.Points
import proofs.«139212_j68092411511099_2_alg».proof.Proof.Gen.KernelIdeal.Frame
import proofs.«139212_j68092411511099_2_alg».proof.Proof.Gen.ReferenceIdeal
import proofs.«139212_j68092411511099_2_alg».proof.Proof.RefRunP
import proofs.«139212_j68092411511099_2_alg».proof.Proof.RefReadP
import proofs.«139212_j68092411511099_2_alg».proof.Proof.RefReadEqP
import proofs.«139212_j68092411511099_2_alg».proof.Proof.Gen.Pre_finite_inputs
import proofs.«139212_j68092411511099_2_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, with the four results forgotten. -/
theorem frame_referenceIdeal : Cert.frame_ReferenceIdeal := fun m ρ _ =>
  (θ_run Cert.ReferenceIdeal.defs _ _).mono (fun _ h c => (h c).2.2.2.2) (Cert.ReferenceIdeal.ValueP.run (F := Ideal) m ρ)

/-- The idealization rewrote no operation. -/
theorem preserves : Cert.preserves_Kernel_KernelIdeal := trivial

/-- Both programs end with the predicted matrix, the true matrix, the latent mean and the latent log-variance at the
    same stage functions of their (agreeing) argument arrays. -/
theorem algebraic : Cert.algebraic_KernelIdeal_ReferenceIdeal := by
  intro m ρ m' ρ' _ hagree
  refine ⟨_, _, _, _, Cert.KernelIdeal.Run.run m ρ, ?_⟩
  refine (θ_run Cert.ReferenceIdeal.defs _ _).mono (fun _ h c => ?_) (Cert.ReferenceIdeal.ValueP.run (F := Ideal) m' ρ')
  obtain ⟨a0, a1, a2, a3, a4, a5, a6, a7, a8, a9, a10, a11, a12, a13⟩ := hagree c
  obtain ⟨r0, r1, r2, r3, rest⟩ := h c
  refine ⟨r0.trans ?_, r1.trans ?_, r2.trans ?_, r3.trans ?_, rest⟩
  · rw [Cert.ReferenceIdeal.ReadP.val_main_v170_eq, a0, a1, a2, a3, a4, a5, a6, a7, a8, a9, a10, a11, a12]
  · rw [a13]; rfl
  · rw [Cert.ReferenceIdeal.ReadP.val_main_v94_eq, a0, a2, a3, a4, a5, a12]
  · rw [Cert.ReferenceIdeal.ReadP.val_main_v141_eq, a0, a2, a3, a6, a7, a12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
